-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S_ : Shape := ⟨0, ![]⟩

class Facts : Prop where
  bcast_S_S8x16384x2 : S_.BroadcastsInDim S8x16384x2 (![] : Fin 0 → Fin S8x16384x2.rank)
  reducesTo_S8x16384x2_S_d0_1_2 : S8x16384x2.ReducesTo [0, 1, 2] S_
  h_S_ : 0 < S_.numel
  bcast_S_S8x16384x256 : S_.BroadcastsInDim S8x16384x256 (![] : Fin 0 → Fin S8x16384x256.rank)
  reducesTo_S8x16384x256_S_d0_1_2 : S8x16384x256.ReducesTo [0, 1, 2] S_
  bcast_S_S258 : S_.BroadcastsInDim S258 (![] : Fin 0 → Fin S258.rank)
  reducesTo_S258_S_d0 : S258.ReducesTo [0] S_
  bcast_S_S512x258 : S_.BroadcastsInDim S512x258 (![] : Fin 0 → Fin S512x258.rank)
  reducesTo_S512x258_S_d0_1 : S512x258.ReducesTo [0, 1] S_

variable [Facts]

def fn_part1 {F : FTy → Type} [FloatOps F] (main_arg5 : FVec F S512x258 .f32) (main_v13 : IVec S_ 1) (main_v16 : IVec S258 1) : IVec S_ 1 :=
  let main_c_5 : IVec S_ 1 := constantI S_ 1 1#1
  let main_v17 : IVec S_ 1 := (fun x v => Host.reduce IntOp.andi x v reducesTo_S258_S_d0 h_S_) main_v16 main_c_5
  let main_v18 : IVec S_ 1 := andi main_v13 main_v17
  let main_v19 : FVec F S512x258 .f32 := Host.absf main_arg5
  let main_cst_6 : FVec F S_ .f32 := constant S_ .f32 0x7F800000#32
  let main_v20 : FVec F S512x258 .f32 := broadcastInDim S512x258 ![] bcast_S_S512x258 main_cst_6
  let main_v21 : IVec S512x258 1 := cmpf .olt main_v19 main_v20
  let main_c_7 : IVec S_ 1 := constantI S_ 1 1#1
  let main_v22 : IVec S_ 1 := (fun x v => Host.reduce IntOp.andi x v reducesTo_S512x258_S_d0_1 h_S_) main_v21 main_c_7
  let main_v23 : IVec S_ 1 := andi main_v18 main_v22
  main_v23

def fn {F : FTy → Type} [FloatOps F] (main_arg0 : FVec F S8x16384x2 .f32) (main_arg1 : FVec F S8x16384x256 .f32) (main_arg2 : IVec S8x16384 32) (main_arg3 : FVec F S258 .f32) (main_arg4 : FVec F S258 .f32) (main_arg5 : FVec F S512x258 .f32) : IVec S_ 1 :=
  let main_v0 : FVec F S8x16384x2 .f32 := Host.absf main_arg0
  let main_cst : FVec F S_ .f32 := constant S_ .f32 0x7F800000#32
  let main_v1 : FVec F S8x16384x2 .f32 := broadcastInDim S8x16384x2 ![] bcast_S_S8x16384x2 main_cst
  let main_v2 : IVec S8x16384x2 1 := cmpf .olt main_v0 main_v1
  let main_c : IVec S_ 1 := constantI S_ 1 1#1
  let main_v3 : IVec S_ 1 := (fun x v => Host.reduce IntOp.andi x v reducesTo_S8x16384x2_S_d0_1_2 h_S_) main_v2 main_c
  let main_v4 : FVec F S8x16384x256 .f32 := Host.absf main_arg1
  let main_cst_0 : FVec F S_ .f32 := constant S_ .f32 0x7F800000#32
  let main_v5 : FVec F S8x16384x256 .f32 := broadcastInDim S8x16384x256 ![] bcast_S_S8x16384x256 main_cst_0
  let main_v6 : IVec S8x16384x256 1 := cmpf .olt main_v4 main_v5
  let main_c_1 : IVec S_ 1 := constantI S_ 1 1#1
  let main_v7 : IVec S_ 1 := (fun x v => Host.reduce IntOp.andi x v reducesTo_S8x16384x256_S_d0_1_2 h_S_) main_v6 main_c_1
  let main_v8 : IVec S_ 1 := andi main_v3 main_v7
  let main_v9 : FVec F S258 .f32 := Host.absf main_arg3
  let main_cst_2 : FVec F S_ .f32 := constant S_ .f32 0x7F800000#32
  let main_v10 : FVec F S258 .f32 := broadcastInDim S258 ![] bcast_S_S258 main_cst_2
  let main_v11 : IVec S258 1 := cmpf .olt main_v9 main_v10
  let main_c_3 : IVec S_ 1 := constantI S_ 1 1#1
  let main_v12 : IVec S_ 1 := (fun x v => Host.reduce IntOp.andi x v reducesTo_S258_S_d0 h_S_) main_v11 main_c_3
  let main_v13 : IVec S_ 1 := andi main_v8 main_v12
  let main_v14 : FVec F S258 .f32 := Host.absf main_arg4
  let main_cst_4 : FVec F S_ .f32 := constant S_ .f32 0x7F800000#32
  let main_v15 : FVec F S258 .f32 := broadcastInDim S258 ![] bcast_S_S258 main_cst_4
  let main_v16 : IVec S258 1 := cmpf .olt main_v14 main_v15
  fn_part1 (F := F) main_arg5 main_v13 main_v16
-- ==== Kernel.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S131072x2 : Shape := ⟨2, ![131072, 2]⟩
abbrev S_ : Shape := ⟨0, ![]⟩
abbrev S2 : Shape := ⟨1, ![2]⟩
abbrev S1x1x2 : Shape := ⟨3, ![1, 1, 2]⟩
abbrev S8 : Shape := ⟨1, ![8]⟩
abbrev S8x1 : Shape := ⟨2, ![8, 1]⟩
abbrev S131072 : Shape := ⟨1, ![131072]⟩
abbrev S32768 : Shape := ⟨1, ![32768]⟩
abbrev S131072x1 : Shape := ⟨2, ![131072, 1]⟩
abbrev S8x4096 : Shape := ⟨2, ![8, 4096]⟩
abbrev S32768x2 : Shape := ⟨2, ![32768, 2]⟩
abbrev S8x4096x2 : Shape := ⟨3, ![8, 4096, 2]⟩
abbrev S8x4096x1 : Shape := ⟨3, ![8, 4096, 1]⟩
abbrev S8x16384x1 : Shape := ⟨3, ![8, 16384, 1]⟩
abbrev S8x16384x2x1 : Shape := ⟨4, ![8, 16384, 2, 1]⟩
abbrev S1 : Shape := ⟨1, ![1]⟩
abbrev S1x1x1x1 : Shape := ⟨4, ![1, 1, 1, 1]⟩
abbrev S1x258 : Shape := ⟨2, ![1, 258]⟩
abbrev S258x512 : Shape := ⟨2, ![258, 512]⟩
abbrev S8x16384x512 : Shape := ⟨3, ![8, 16384, 512]⟩
abbrev S1x4096x256 : Shape := ⟨3, ![1, 4096, 256]⟩
abbrev S1x4096x2 : Shape := ⟨3, ![1, 4096, 2]⟩
abbrev S1x4096x512 : Shape := ⟨3, ![1, 4096, 512]⟩
abbrev S4096x256 : Shape := ⟨2, ![4096, 256]⟩
abbrev S4096x2 : Shape := ⟨2, ![4096, 2]⟩
abbrev S4096x258 : Shape := ⟨2, ![4096, 258]⟩
abbrev S4096 : Shape := ⟨1, ![4096]⟩
abbrev S4096x1 : Shape := ⟨2, ![4096, 1]⟩
abbrev S256x512 : Shape := ⟨2, ![256, 512]⟩
abbrev S2x512 : Shape := ⟨2, ![2, 512]⟩
abbrev S4096x512 : Shape := ⟨2, ![4096, 512]⟩
abbrev S1x512 : Shape := ⟨2, ![1, 512]⟩
abbrev S131072x512 : Shape := ⟨2, ![131072, 512]⟩
abbrev S32768x512 : Shape := ⟨2, ![32768, 512]⟩
abbrev S8x4096x512 : Shape := ⟨3, ![8, 4096, 512]⟩

abbrev nBuf : Space → Nat
  | .hbm => 88
  | .vmem => 9
  | .smem => 0
  | _ => 0

abbrev bufTy : (tb : Table) → Fin (tcTables nBuf tb) → BufTy
  | .hbm, ⟨0, _⟩ => ⟨S8x16384x2, .f32⟩
  | .hbm, ⟨1, _⟩ => ⟨S8x16384x256, .f32⟩
  | .hbm, ⟨2, _⟩ => ⟨S8x16384, .i32⟩
  | .hbm, ⟨3, _⟩ => ⟨S258, .f32⟩
  | .hbm, ⟨4, _⟩ => ⟨S258, .f32⟩
  | .hbm, ⟨5, _⟩ => ⟨S512x258, .f32⟩
  | .hbm, ⟨6, _⟩ => ⟨S131072x2, .f32⟩
  | .hbm, ⟨7, _⟩ => ⟨S_, .f32⟩
  | .hbm, ⟨8, _⟩ => ⟨S2, .f32⟩
  | .hbm, ⟨9, _⟩ => ⟨S1x1x2, .f32⟩
  | .hbm, ⟨10, _⟩ => ⟨S8x16384x2, .f32⟩
  | .hbm, ⟨11, _⟩ => ⟨S8x16384x2, .f32⟩
  | .hbm, ⟨12, _⟩ => ⟨S8, .i32⟩
  | .hbm, ⟨13, _⟩ => ⟨S8x1, .i32⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x16384, .i32⟩
  | .hbm, ⟨18, _⟩ => ⟨S8x16384, .i32⟩
  | .hbm, ⟨19, _⟩ => ⟨S131072, .i32⟩
  | .hbm, ⟨20, _⟩ => ⟨S_, .f32⟩
  | .hbm, ⟨21, _⟩ => ⟨S131072, .f32⟩
  | .hbm, ⟨22, _⟩ => ⟨S_, .f32⟩
  | .hbm, ⟨23, _⟩ => ⟨S32768, .f32⟩
  | .hbm, ⟨24, _⟩ => ⟨S131072x1, .i32⟩
  | .hbm, ⟨25, _⟩ => ⟨S32768, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S131072x2, .f32⟩
  | .hbm, ⟨31, _⟩ => ⟨S_, .f32⟩
  | .hbm, ⟨32, _⟩ => ⟨S32768x2, .f32⟩
  | .hbm, ⟨33, _⟩ => ⟨S131072x1, .i32⟩
  | .hbm, ⟨34, _⟩ => ⟨S32768x2, .f32⟩
  | .hbm, ⟨35, _⟩ => ⟨S8x4096x2, .f32⟩
  | .hbm, ⟨36, _⟩ => ⟨S8x4096x1, .f32⟩
  | .hbm, ⟨37, _⟩ => ⟨S8x4096x2, .f32⟩
  | .hbm, ⟨38, _⟩ => ⟨S8x4096x2, .f32⟩
  | .hbm, ⟨39, _⟩ => ⟨S8x16384x1, .i32⟩
  | .hbm, ⟨40, _⟩ => ⟨S8x16384x2, .i32⟩
  | .hbm, ⟨41, _⟩ => ⟨S_, .i32⟩
  | .hbm, ⟨42, _⟩ => ⟨S8x16384x2, .i32⟩
  | .hbm, ⟨43, _⟩ => ⟨S8x16384x2, .i1⟩
  | .hbm, ⟨44, _⟩ => ⟨S_, .i32⟩
  | .hbm, ⟨45, _⟩ => ⟨S8x16384x2, .i32⟩
  | .hbm, ⟨46, _⟩ => ⟨S8x16384x2, .i32⟩
  | .hbm, ⟨47, _⟩ => ⟨S8x16384x2, .i32⟩
  | .hbm, ⟨48, _⟩ => ⟨S8x16384x2x1, .i32⟩
  | .hbm, ⟨49, _⟩ => ⟨S1, .i32⟩
  | .hbm, ⟨50, _⟩ => ⟨S_, .i32⟩
  | .hbm, ⟨51, _⟩ => ⟨S8x16384x2x1, .i32⟩
  | .hbm, ⟨52, _⟩ => ⟨S8x16384x2x1, .i1⟩
  | .hbm, ⟨53, _⟩ => ⟨S1x1x1x1, .i32⟩
  | .hbm, ⟨54, _⟩ => ⟨S8x16384x2x1, .i32⟩
  | .hbm, ⟨55, _⟩ => ⟨S8x16384x2x1, .i1⟩
  | .hbm, ⟨56, _⟩ => ⟨S8x16384x2x1, .i1⟩
  | .hbm, ⟨57, _⟩ => ⟨S_, .i1⟩
  | .hbm, ⟨58, _⟩ => ⟨S8x16384x2, .i1⟩
  | .hbm, ⟨59, _⟩ => ⟨S8x16384x2, .f32⟩
  | .hbm, ⟨60, _⟩ => ⟨S_, .f32⟩
  | .hbm, ⟨61, _⟩ => ⟨S8x16384x2, .f32⟩
  | .hbm, ⟨62, _⟩ => ⟨S8x16384x2, .f32⟩
  | .hbm, ⟨63, _⟩ => ⟨S8x16384x2, .f32⟩
  | .hbm, ⟨64, _⟩ => ⟨S1x258, .f32⟩
  | .hbm, ⟨65, _⟩ => ⟨S1x258, .f32⟩
  | .hbm, ⟨66, _⟩ => ⟨S258x512, .f32⟩
  | .hbm, ⟨67, _⟩ => ⟨S8x16384x512, .f32⟩
  | .hbm, ⟨68, _⟩ => ⟨S131072x512, .f32⟩
  | .hbm, ⟨69, _⟩ => ⟨S_, .f32⟩
  | .hbm, ⟨70, _⟩ => ⟨S32768x512, .f32⟩
  | .hbm, ⟨71, _⟩ => ⟨S131072x1, .i32⟩
  | .hbm, ⟨72, _⟩ => ⟨S32768x512, .f32⟩
  | .hbm, ⟨73, _⟩ => ⟨S8x4096x512, .f32⟩
  | .hbm, ⟨74, _⟩ => ⟨S8x4096x1, .f32⟩
  | .hbm, ⟨75, _⟩ => ⟨S8x4096x512, .f32⟩
  | .hbm, ⟨76, _⟩ => ⟨S8x4096x512, .f32⟩
  | .hbm, ⟨77, _⟩ => ⟨S_, .f32⟩
  | .hbm, ⟨78, _⟩ => ⟨S8x4096, .f32⟩
  | .hbm, ⟨79, _⟩ => ⟨S8x4096, .i1⟩
  | .hbm, ⟨80, _⟩ => ⟨S8x4096, .f32⟩
  | .hbm, ⟨81, _⟩ => ⟨S8x4096x1, .f32⟩
  | .hbm, ⟨82, _⟩ => ⟨S8x4096x512, .f32⟩
  | .hbm, ⟨83, _⟩ => ⟨S8x4096x512, .f32⟩
  | .hbm, ⟨84, _⟩ => ⟨S8x4096x1, .f32⟩
  | .hbm, ⟨85, _⟩ => ⟨S8x4096x2, .f32⟩
  | .hbm, ⟨86, _⟩ => ⟨S8x4096x2, .f32⟩
  | .hbm, ⟨87, _⟩ => ⟨S8x4096x1, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x2, .f32⟩
  | .local _ .vmem, ⟨3, _⟩ => ⟨S1x4096x2, .f32⟩
  | .local _ .vmem, ⟨4, _⟩ => ⟨S1x258, .f32⟩
  | .local _ .vmem, ⟨5, _⟩ => ⟨S1x258, .f32⟩
  | .local _ .vmem, ⟨6, _⟩ => ⟨S258x512, .f32⟩
  | .local _ .vmem, ⟨7, _⟩ => ⟨S1x4096x512, .f32⟩
  | .local _ .vmem, ⟨8, _⟩ => ⟨S1x4096x512, .f32⟩
  | _, _ => ⟨S8x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x258 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x258 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S258x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x16384x2_S131072x2 : S8x16384x2.ShapeCasts S131072x2
  reducesTo_S131072x2_S2_d0 : S131072x2.ReducesTo [0] S2
  h_S_ : 0 < S_.numel
  bcast_S2_S1x1x2_2 : S2.BroadcastsInDim S1x1x2 (![2] : Fin 1 → Fin S1x1x2.rank)
  bcast_S1x1x2_S8x16384x2_0_1_2 : S1x1x2.BroadcastsInDim S8x16384x2 (![0, 1, 2] : Fin 3 → Fin S8x16384x2.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  shapeCasts_S8x16384_S131072 : S8x16384.ShapeCasts S131072
  bcast_S_S131072 : S_.BroadcastsInDim S131072 (![] : Fin 0 → Fin S131072.rank)
  bcast_S_S32768 : S_.BroadcastsInDim S32768 (![] : Fin 0 → Fin S32768.rank)
  bcast_S131072_S131072x1_0 : S131072.BroadcastsInDim S131072x1 (![0] : Fin 1 → Fin S131072x1.rank)
  shapeCasts_S32768_S8x4096 : S32768.ShapeCasts S8x4096
  bcast_S_S8x4096 : S_.BroadcastsInDim S8x4096 (![] : Fin 0 → Fin S8x4096.rank)
  bcast_S_S32768x2 : S_.BroadcastsInDim S32768x2 (![] : Fin 0 → Fin S32768x2.rank)
  shapeCasts_S32768x2_S8x4096x2 : S32768x2.ShapeCasts S8x4096x2
  bcast_S8x4096_S8x4096x1_0_1 : S8x4096.BroadcastsInDim S8x4096x1 (![0, 1] : Fin 2 → Fin S8x4096x1.rank)
  bcast_S8x4096x1_S8x4096x2_0_1_2 : S8x4096x1.BroadcastsInDim S8x4096x2 (![0, 1, 2] : Fin 3 → Fin S8x4096x2.rank)
  bcast_S8x16384_S8x16384x1_0_1 : S8x16384.BroadcastsInDim S8x16384x1 (![0, 1] : Fin 2 → Fin S8x16384x1.rank)
  bcast_S8x16384x1_S8x16384x2_0_1_2 : S8x16384x1.BroadcastsInDim S8x16384x2 (![0, 1, 2] : Fin 3 → Fin S8x16384x2.rank)
  bcast_S_S8x16384x2 : S_.BroadcastsInDim S8x16384x2 (![] : Fin 0 → Fin S8x16384x2.rank)
  shapeCasts_S8x16384x2_S8x16384x2x1 : S8x16384x2.ShapeCasts S8x16384x2x1
  bcast_S_S8x16384x2x1 : S_.BroadcastsInDim S8x16384x2x1 (![] : Fin 0 → Fin S8x16384x2x1.rank)
  bcast_S1_S1x1x1x1_3 : S1.BroadcastsInDim S1x1x1x1 (![3] : Fin 1 → Fin S1x1x1x1.rank)
  bcast_S1x1x1x1_S8x16384x2x1_0_1_2_3 : S1x1x1x1.BroadcastsInDim S8x16384x2x1 (![0, 1, 2, 3] : Fin 4 → Fin S8x16384x2x1.rank)
  reducesTo_S8x16384x2x1_S8x16384x2_d3 : S8x16384x2x1.ReducesTo [3] S8x16384x2
  shapeCasts_S258_S1x258 : S258.ShapeCasts S1x258
  transposes_S512x258_S258x512_1_0 : S512x258.Transposes [1, 0] S258x512
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  concatenates_S4096x256_S4096x2_S4096x258_d1 : Shape.Concatenates [S4096x256, S4096x2] S4096x258 1
  reduces_S4096x258_S4096 : S4096x258.Reduces [1] S4096
  shapeCasts_S4096_S4096x1 : S4096.ShapeCasts S4096x1
  broadcasts_S4096x1_S4096x258 : S4096x1.Broadcasts S4096x258
  inb_S1x258_S1x258_0_0 : ∀ a, (![0, 0] : Fin 2 → Nat) a + S1x258.size a ≤ S1x258.size a
  h_S1x258 : 0 < S1x258.numel
  shapeCasts_S1x258_S1x258 : S1x258.ShapeCasts S1x258
  broadcasts_S1x258_S4096x258 : S1x258.Broadcasts S4096x258
  inb_S258x512_S258x512_0_0 : ∀ a, (![0, 0] : Fin 2 → Nat) a + S258x512.size a ≤ S258x512.size a
  h_S258x512 : 0 < S258x512.numel
  shapeCasts_S258x512_S258x512 : S258x512.ShapeCasts S258x512
  slices_S258x512_o0_0_S256x512 : S258x512.Slices ![0, 0] S256x512
  slices_S258x512_o256_0_S2x512 : S258x512.Slices ![256, 0] S2x512
  slices_S4096x258_o0_0_S4096x256 : S4096x258.Slices ![0, 0] S4096x256
  slices_S4096x258_o0_256_S4096x2 : S4096x258.Slices ![0, 256] S4096x2
  slices_S4096x2_o0_0_S4096x1 : S4096x2.Slices ![0, 0] S4096x1
  slices_S2x512_o0_0_S1x512 : S2x512.Slices ![0, 0] S1x512
  broadcasts_S4096x1_S4096x512 : S4096x1.Broadcasts S4096x512
  broadcasts_S1x512_S4096x512 : S1x512.Broadcasts S4096x512
  slices_S4096x2_o0_1_S4096x1 : S4096x2.Slices ![0, 1] S4096x1
  slices_S2x512_o1_0_S1x512 : S2x512.Slices ![1, 0] S1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  shapeCasts_S8x16384x512_S131072x512 : S8x16384x512.ShapeCasts S131072x512
  bcast_S_S32768x512 : S_.BroadcastsInDim S32768x512 (![] : Fin 0 → Fin S32768x512.rank)
  shapeCasts_S32768x512_S8x4096x512 : S32768x512.ShapeCasts S8x4096x512
  bcast_S8x4096x1_S8x4096x512_0_1_2 : S8x4096x1.BroadcastsInDim S8x4096x512 (![0, 1, 2] : Fin 3 → Fin S8x4096x512.rank)
  scatter_S32768_S131072x1_S131072_n_0_0_1_wf : ScatterDims.WF S32768 S131072x1 S131072 [] [0] [0] 1
  scatter_S32768x2_S131072x1_S131072x2_1_0_0_1_wf : ScatterDims.WF S32768x2 S131072x1 S131072x2 [1] [0] [0] 1
  gather_S8x4096x2_S8x16384x2x1_S8x16384x2_n_1_02_02_1_3_111_wf : GatherDims.WF S8x4096x2 S8x16384x2x1 S8x16384x2 [] [1] [0, 2] [1] [0, 2] 3 ![1, 1, 1]
  dot_S4096x256_S256x512_S4096x512_1_0_0_1_n_n_wf : DotDims.WF S4096x256 S256x512 S4096x512 [1] [0] [0] [1] [] []
  scatter_S32768x512_S131072x1_S131072x512_1_0_0_1_wf : ScatterDims.WF S32768x512 S131072x1 S131072x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x16384x256.size a
  hwx0_0 : ∀ i : grid0.Coords, EltTy.bits .f32 = 32 ∨ (Rect.block (s := S8x16384x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x2.size a ≤ S8x16384x2.size a
  hwx0_1 : ∀ i : grid0.Coords, EltTy.bits .f32 = 32 ∨ (Rect.block (s := S8x16384x2) S1x4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x258.size a ≤ S1x258.size a
  hwx0_2 : ∀ i : grid0.Coords, EltTy.bits .f32 = 32 ∨ (Rect.block (s := S1x258) S1x258.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x258.size a ≤ S1x258.size a
  hwx0_3 : ∀ i : grid0.Coords, EltTy.bits .f32 = 32 ∨ (Rect.block (s := S1x258) S1x258.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S258x512.size a ≤ S258x512.size a
  hwx0_4 : ∀ i : grid0.Coords, EltTy.bits .f32 = 32 ∨ (Rect.block (s := S258x512) S258x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x512.size a ≤ S8x16384x512.size a
  hwx0_5 : ∀ i : grid0.Coords, EltTy.bits .f32 = 32 ∨ (Rect.block (s := S8x16384x512) S1x4096x512.size (cc0_transform_5 i) (hinb0_5 i)).WholeWords (EltTy.packing .f32)

variable [Facts₀]

def scatter_S32768_S131072x1_S131072_n_0_0_1 : ScatterDims S32768 S131072x1 S131072 where
  updateWindowDims := []
  insertedWindowDims := [0]
  scatterDimsToOperandDims := [0]
  indexVectorDim := 1
  wf := scatter_S32768_S131072x1_S131072_n_0_0_1_wf
def scatter_S32768x2_S131072x1_S131072x2_1_0_0_1 : ScatterDims S32768x2 S131072x1 S131072x2 where
  updateWindowDims := [1]
  insertedWindowDims := [0]
  scatterDimsToOperandDims := [0]
  indexVectorDim := 1
  wf := scatter_S32768x2_S131072x1_S131072x2_1_0_0_1_wf
def gather_S8x4096x2_S8x16384x2x1_S8x16384x2_n_1_02_02_1_3_111 : GatherDims S8x4096x2 S8x16384x2x1 S8x16384x2 where
  offsetDims := []
  collapsedSliceDims := [1]
  operandBatchingDims := [0, 2]
  startIndicesBatchingDims := [0, 2]
  startIndexMap := [1]
  indexVectorDim := 3
  sliceSizes := ![1, 1, 1]
  wf := gather_S8x4096x2_S8x16384x2x1_S8x16384x2_n_1_02_02_1_3_111_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def scatter_S32768x512_S131072x1_S131072x512_1_0_0_1 : ScatterDims S32768x512 S131072x1 S131072x512 where
  updateWindowDims := [1]
  insertedWindowDims := [0]
  scatterDimsToOperandDims := [0]
  indexVectorDim := 1
  wf := scatter_S32768x512_S131072x1_S131072x512_1_0_0_1_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x258.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x258.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S258x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S131072x2 : Shape := ⟨2, ![131072, 2]⟩
abbrev S_ : Shape := ⟨0, ![]⟩
abbrev S2 : Shape := ⟨1, ![2]⟩
abbrev S1x1x2 : Shape := ⟨3, ![1, 1, 2]⟩
abbrev S8 : Shape := ⟨1, ![8]⟩
abbrev S8x1 : Shape := ⟨2, ![8, 1]⟩
abbrev S131072 : Shape := ⟨1, ![131072]⟩
abbrev S32768 : Shape := ⟨1, ![32768]⟩
abbrev S131072x1 : Shape := ⟨2, ![131072, 1]⟩
abbrev S8x4096 : Shape := ⟨2, ![8, 4096]⟩
abbrev S32768x2 : Shape := ⟨2, ![32768, 2]⟩
abbrev S8x4096x2 : Shape := ⟨3, ![8, 4096, 2]⟩
abbrev S8x4096x1 : Shape := ⟨3, ![8, 4096, 1]⟩
abbrev S8x16384x1 : Shape := ⟨3, ![8, 16384, 1]⟩
abbrev S8x16384x2x1 : Shape := ⟨4, ![8, 16384, 2, 1]⟩
abbrev S1 : Shape := ⟨1, ![1]⟩
abbrev S1x1x1x1 : Shape := ⟨4, ![1, 1, 1, 1]⟩
abbrev S8x16384x258 : Shape := ⟨3, ![8, 16384, 258]⟩
abbrev S1x1x258 : Shape := ⟨3, ![1, 1, 258]⟩
abbrev S8x16384x512 : Shape := ⟨3, ![8, 16384, 512]⟩
abbrev S131072x512 : Shape := ⟨2, ![131072, 512]⟩
abbrev S32768x512 : Shape := ⟨2, ![32768, 512]⟩
abbrev S8x4096x512 : Shape := ⟨3, ![8, 4096, 512]⟩

abbrev nBuf : Space → Nat
  | .hbm => 115
  | .vmem => 0
  | .smem => 0
  | _ => 0

abbrev bufTy : (tb : Table) → Fin (tcTables nBuf tb) → BufTy
  | .hbm, ⟨0, _⟩ => ⟨S8x16384x2, .f32⟩
  | .hbm, ⟨1, _⟩ => ⟨S8x16384x256, .f32⟩
  | .hbm, ⟨2, _⟩ => ⟨S8x16384, .i32⟩
  | .hbm, ⟨3, _⟩ => ⟨S258, .f32⟩
  | .hbm, ⟨4, _⟩ => ⟨S258, .f32⟩
  | .hbm, ⟨5, _⟩ => ⟨S512x258, .f32⟩
  | .hbm, ⟨6, _⟩ => ⟨S131072x2, .f32⟩
  | .hbm, ⟨7, _⟩ => ⟨S_, .f32⟩
  | .hbm, ⟨8, _⟩ => ⟨S2, .f32⟩
  | .hbm, ⟨9, _⟩ => ⟨S1x1x2, .f32⟩
  | .hbm, ⟨10, _⟩ => ⟨S8x16384x2, .f32⟩
  | .hbm, ⟨11, _⟩ => ⟨S8x16384x2, .f32⟩
  | .hbm, ⟨12, _⟩ => ⟨S8, .i32⟩
  | .hbm, ⟨13, _⟩ => ⟨S8x1, .i32⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x16384, .i32⟩
  | .hbm, ⟨18, _⟩ => ⟨S8x16384, .i32⟩
  | .hbm, ⟨19, _⟩ => ⟨S131072, .i32⟩
  | .hbm, ⟨20, _⟩ => ⟨S_, .f32⟩
  | .hbm, ⟨21, _⟩ => ⟨S131072, .f32⟩
  | .hbm, ⟨22, _⟩ => ⟨S_, .f32⟩
  | .hbm, ⟨23, _⟩ => ⟨S32768, .f32⟩
  | .hbm, ⟨24, _⟩ => ⟨S131072x1, .i32⟩
  | .hbm, ⟨25, _⟩ => ⟨S32768, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S131072x2, .f32⟩
  | .hbm, ⟨31, _⟩ => ⟨S_, .f32⟩
  | .hbm, ⟨32, _⟩ => ⟨S32768x2, .f32⟩
  | .hbm, ⟨33, _⟩ => ⟨S131072x1, .i32⟩
  | .hbm, ⟨34, _⟩ => ⟨S32768x2, .f32⟩
  | .hbm, ⟨35, _⟩ => ⟨S8x4096x2, .f32⟩
  | .hbm, ⟨36, _⟩ => ⟨S8x4096x1, .f32⟩
  | .hbm, ⟨37, _⟩ => ⟨S8x4096x2, .f32⟩
  | .hbm, ⟨38, _⟩ => ⟨S8x4096x2, .f32⟩
  | .hbm, ⟨39, _⟩ => ⟨S8x16384x1, .i32⟩
  | .hbm, ⟨40, _⟩ => ⟨S8x16384x2, .i32⟩
  | .hbm, ⟨41, _⟩ => ⟨S_, .i32⟩
  | .hbm, ⟨42, _⟩ => ⟨S8x16384x2, .i32⟩
  | .hbm, ⟨43, _⟩ => ⟨S8x16384x2, .i1⟩
  | .hbm, ⟨44, _⟩ => ⟨S_, .i32⟩
  | .hbm, ⟨45, _⟩ => ⟨S8x16384x2, .i32⟩
  | .hbm, ⟨46, _⟩ => ⟨S8x16384x2, .i32⟩
  | .hbm, ⟨47, _⟩ => ⟨S8x16384x2, .i32⟩
  | .hbm, ⟨48, _⟩ => ⟨S8x16384x2x1, .i32⟩
  | .hbm, ⟨49, _⟩ => ⟨S1, .i32⟩
  | .hbm, ⟨50, _⟩ => ⟨S_, .i32⟩
  | .hbm, ⟨51, _⟩ => ⟨S8x16384x2x1, .i32⟩
  | .hbm, ⟨52, _⟩ => ⟨S8x16384x2x1, .i1⟩
  | .hbm, ⟨53, _⟩ => ⟨S1x1x1x1, .i32⟩
  | .hbm, ⟨54, _⟩ => ⟨S8x16384x2x1, .i32⟩
  | .hbm, ⟨55, _⟩ => ⟨S8x16384x2x1, .i1⟩
  | .hbm, ⟨56, _⟩ => ⟨S8x16384x2x1, .i1⟩
  | .hbm, ⟨57, _⟩ => ⟨S_, .i1⟩
  | .hbm, ⟨58, _⟩ => ⟨S8x16384x2, .i1⟩
  | .hbm, ⟨59, _⟩ => ⟨S8x16384x2, .f32⟩
  | .hbm, ⟨60, _⟩ => ⟨S_, .f32⟩
  | .hbm, ⟨61, _⟩ => ⟨S8x16384x2, .f32⟩
  | .hbm, ⟨62, _⟩ => ⟨S8x16384x2, .f32⟩
  | .hbm, ⟨63, _⟩ => ⟨S8x16384x2, .f32⟩
  | .hbm, ⟨64, _⟩ => ⟨S8x16384x258, .f32⟩
  | .hbm, ⟨65, _⟩ => ⟨S_, .f32⟩
  | .hbm, ⟨66, _⟩ => ⟨S8x16384, .f32⟩
  | .hbm, ⟨67, _⟩ => ⟨S8x16384x1, .f32⟩
  | .hbm, ⟨68, _⟩ => ⟨S_, .f32⟩
  | .hbm, ⟨69, _⟩ => ⟨S8x16384x1, .f32⟩
  | .hbm, ⟨70, _⟩ => ⟨S8x16384x1, .f32⟩
  | .hbm, ⟨71, _⟩ => ⟨S8x16384x258, .f32⟩
  | .hbm, ⟨72, _⟩ => ⟨S8x16384x258, .f32⟩
  | .hbm, ⟨73, _⟩ => ⟨S8x16384x258, .f32⟩
  | .hbm, ⟨74, _⟩ => ⟨S_, .f32⟩
  | .hbm, ⟨75, _⟩ => ⟨S8x16384, .f32⟩
  | .hbm, ⟨76, _⟩ => ⟨S8x16384x1, .f32⟩
  | .hbm, ⟨77, _⟩ => ⟨S_, .f32⟩
  | .hbm, ⟨78, _⟩ => ⟨S8x16384x1, .f32⟩
  | .hbm, ⟨79, _⟩ => ⟨S8x16384x1, .f32⟩
  | .hbm, ⟨80, _⟩ => ⟨S8x16384x258, .f32⟩
  | .hbm, ⟨81, _⟩ => ⟨S8x16384x258, .f32⟩
  | .hbm, ⟨82, _⟩ => ⟨S_, .f32⟩
  | .hbm, ⟨83, _⟩ => ⟨S8x16384x1, .f32⟩
  | .hbm, ⟨84, _⟩ => ⟨S8x16384x1, .f32⟩
  | .hbm, ⟨85, _⟩ => ⟨S8x16384x1, .f32⟩
  | .hbm, ⟨86, _⟩ => ⟨S8x16384x258, .f32⟩
  | .hbm, ⟨87, _⟩ => ⟨S8x16384x258, .f32⟩
  | .hbm, ⟨88, _⟩ => ⟨S1x1x258, .f32⟩
  | .hbm, ⟨89, _⟩ => ⟨S8x16384x258, .f32⟩
  | .hbm, ⟨90, _⟩ => ⟨S8x16384x258, .f32⟩
  | .hbm, ⟨91, _⟩ => ⟨S1x1x258, .f32⟩
  | .hbm, ⟨92, _⟩ => ⟨S8x16384x258, .f32⟩
  | .hbm, ⟨93, _⟩ => ⟨S8x16384x258, .f32⟩
  | .hbm, ⟨94, _⟩ => ⟨S8x16384x512, .f32⟩
  | .hbm, ⟨95, _⟩ => ⟨S131072x512, .f32⟩
  | .hbm, ⟨96, _⟩ => ⟨S_, .f32⟩
  | .hbm, ⟨97, _⟩ => ⟨S32768x512, .f32⟩
  | .hbm, ⟨98, _⟩ => ⟨S131072x1, .i32⟩
  | .hbm, ⟨99, _⟩ => ⟨S32768x512, .f32⟩
  | .hbm, ⟨100, _⟩ => ⟨S8x4096x512, .f32⟩
  | .hbm, ⟨101, _⟩ => ⟨S8x4096x1, .f32⟩
  | .hbm, ⟨102, _⟩ => ⟨S8x4096x512, .f32⟩
  | .hbm, ⟨103, _⟩ => ⟨S8x4096x512, .f32⟩
  | .hbm, ⟨104, _⟩ => ⟨S_, .f32⟩
  | .hbm, ⟨105, _⟩ => ⟨S8x4096, .f32⟩
  | .hbm, ⟨106, _⟩ => ⟨S8x4096, .i1⟩
  | .hbm, ⟨107, _⟩ => ⟨S8x4096, .f32⟩
  | .hbm, ⟨108, _⟩ => ⟨S8x4096x1, .f32⟩
  | .hbm, ⟨109, _⟩ => ⟨S8x4096x512, .f32⟩
  | .hbm, ⟨110, _⟩ => ⟨S8x4096x512, .f32⟩
  | .hbm, ⟨111, _⟩ => ⟨S8x4096x1, .f32⟩
  | .hbm, ⟨112, _⟩ => ⟨S8x4096x2, .f32⟩
  | .hbm, ⟨113, _⟩ => ⟨S8x4096x2, .f32⟩
  | .hbm, ⟨114, _⟩ => ⟨S8x4096x1, .f32⟩
  | _, _ => ⟨S8x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_9 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]

class Facts₀ : Prop where
  shapeCasts_S8x16384x2_S131072x2 : S8x16384x2.ShapeCasts S131072x2
  reducesTo_S131072x2_S2_d0 : S131072x2.ReducesTo [0] S2
  h_S_ : 0 < S_.numel
  bcast_S2_S1x1x2_2 : S2.BroadcastsInDim S1x1x2 (![2] : Fin 1 → Fin S1x1x2.rank)
  bcast_S1x1x2_S8x16384x2_0_1_2 : S1x1x2.BroadcastsInDim S8x16384x2 (![0, 1, 2] : Fin 3 → Fin S8x16384x2.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  shapeCasts_S8x16384_S131072 : S8x16384.ShapeCasts S131072
  bcast_S_S131072 : S_.BroadcastsInDim S131072 (![] : Fin 0 → Fin S131072.rank)
  bcast_S_S32768 : S_.BroadcastsInDim S32768 (![] : Fin 0 → Fin S32768.rank)
  bcast_S131072_S131072x1_0 : S131072.BroadcastsInDim S131072x1 (![0] : Fin 1 → Fin S131072x1.rank)
  shapeCasts_S32768_S8x4096 : S32768.ShapeCasts S8x4096
  bcast_S_S8x4096 : S_.BroadcastsInDim S8x4096 (![] : Fin 0 → Fin S8x4096.rank)
  bcast_S_S32768x2 : S_.BroadcastsInDim S32768x2 (![] : Fin 0 → Fin S32768x2.rank)
  shapeCasts_S32768x2_S8x4096x2 : S32768x2.ShapeCasts S8x4096x2
  bcast_S8x4096_S8x4096x1_0_1 : S8x4096.BroadcastsInDim S8x4096x1 (![0, 1] : Fin 2 → Fin S8x4096x1.rank)
  bcast_S8x4096x1_S8x4096x2_0_1_2 : S8x4096x1.BroadcastsInDim S8x4096x2 (![0, 1, 2] : Fin 3 → Fin S8x4096x2.rank)
  bcast_S8x16384_S8x16384x1_0_1 : S8x16384.BroadcastsInDim S8x16384x1 (![0, 1] : Fin 2 → Fin S8x16384x1.rank)
  bcast_S8x16384x1_S8x16384x2_0_1_2 : S8x16384x1.BroadcastsInDim S8x16384x2 (![0, 1, 2] : Fin 3 → Fin S8x16384x2.rank)
  bcast_S_S8x16384x2 : S_.BroadcastsInDim S8x16384x2 (![] : Fin 0 → Fin S8x16384x2.rank)
  shapeCasts_S8x16384x2_S8x16384x2x1 : S8x16384x2.ShapeCasts S8x16384x2x1
  bcast_S_S8x16384x2x1 : S_.BroadcastsInDim S8x16384x2x1 (![] : Fin 0 → Fin S8x16384x2x1.rank)
  bcast_S1_S1x1x1x1_3 : S1.BroadcastsInDim S1x1x1x1 (![3] : Fin 1 → Fin S1x1x1x1.rank)
  bcast_S1x1x1x1_S8x16384x2x1_0_1_2_3 : S1x1x1x1.BroadcastsInDim S8x16384x2x1 (![0, 1, 2, 3] : Fin 4 → Fin S8x16384x2x1.rank)
  reducesTo_S8x16384x2x1_S8x16384x2_d3 : S8x16384x2x1.ReducesTo [3] S8x16384x2
  concatenates_S8x16384x256_S8x16384x2_S8x16384x258_d2 : Shape.Concatenates [S8x16384x256, S8x16384x2] S8x16384x258 2
  reducesTo_S8x16384x258_S8x16384_d2 : S8x16384x258.ReducesTo [2] S8x16384
  bcast_S_S8x16384x1 : S_.BroadcastsInDim S8x16384x1 (![] : Fin 0 → Fin S8x16384x1.rank)
  bcast_S8x16384x1_S8x16384x258_0_1_2 : S8x16384x1.BroadcastsInDim S8x16384x258 (![0, 1, 2] : Fin 3 → Fin S8x16384x258.rank)
  bcast_S258_S1x1x258_2 : S258.BroadcastsInDim S1x1x258 (![2] : Fin 1 → Fin S1x1x258.rank)
  bcast_S1x1x258_S8x16384x258_0_1_2 : S1x1x258.BroadcastsInDim S8x16384x258 (![0, 1, 2] : Fin 3 → Fin S8x16384x258.rank)
  shapeCasts_S8x16384x512_S131072x512 : S8x16384x512.ShapeCasts S131072x512
  bcast_S_S32768x512 : S_.BroadcastsInDim S32768x512 (![] : Fin 0 → Fin S32768x512.rank)
  shapeCasts_S32768x512_S8x4096x512 : S32768x512.ShapeCasts S8x4096x512
  bcast_S8x4096x1_S8x4096x512_0_1_2 : S8x4096x1.BroadcastsInDim S8x4096x512 (![0, 1, 2] : Fin 3 → Fin S8x4096x512.rank)
  scatter_S32768_S131072x1_S131072_n_0_0_1_wf : ScatterDims.WF S32768 S131072x1 S131072 [] [0] [0] 1
  scatter_S32768x2_S131072x1_S131072x2_1_0_0_1_wf : ScatterDims.WF S32768x2 S131072x1 S131072x2 [1] [0] [0] 1
  gather_S8x4096x2_S8x16384x2x1_S8x16384x2_n_1_02_02_1_3_111_wf : GatherDims.WF S8x4096x2 S8x16384x2x1 S8x16384x2 [] [1] [0, 2] [1] [0, 2] 3 ![1, 1, 1]
  dot_S8x16384x258_S512x258_S8x16384x512_2_1_01_0_n_n_wf : DotDims.WF S8x16384x258 S512x258 S8x16384x512 [2] [1] [0, 1] [0] [] []
  scatter_S32768x512_S131072x1_S131072x512_1_0_0_1_wf : ScatterDims.WF S32768x512 S131072x1 S131072x512 [1] [0] [0] 1

variable [Facts₀]

def scatter_S32768_S131072x1_S131072_n_0_0_1 : ScatterDims S32768 S131072x1 S131072 where
  updateWindowDims := []
  insertedWindowDims := [0]
  scatterDimsToOperandDims := [0]
  indexVectorDim := 1
  wf := scatter_S32768_S131072x1_S131072_n_0_0_1_wf
def scatter_S32768x2_S131072x1_S131072x2_1_0_0_1 : ScatterDims S32768x2 S131072x1 S131072x2 where
  updateWindowDims := [1]
  insertedWindowDims := [0]
  scatterDimsToOperandDims := [0]
  indexVectorDim := 1
  wf := scatter_S32768x2_S131072x1_S131072x2_1_0_0_1_wf
def gather_S8x4096x2_S8x16384x2x1_S8x16384x2_n_1_02_02_1_3_111 : GatherDims S8x4096x2 S8x16384x2x1 S8x16384x2 where
  offsetDims := []
  collapsedSliceDims := [1]
  operandBatchingDims := [0, 2]
  startIndicesBatchingDims := [0, 2]
  startIndexMap := [1]
  indexVectorDim := 3
  sliceSizes := ![1, 1, 1]
  wf := gather_S8x4096x2_S8x16384x2x1_S8x16384x2_n_1_02_02_1_3_111_wf
def dot_S8x16384x258_S512x258_S8x16384x512_2_1_01_0_n_n : DotDims S8x16384x258 S512x258 S8x16384x512 where
  lhsContracting := [2]
  rhsContracting := [1]
  lhsNonContracting := [0, 1]
  rhsNonContracting := [0]
  lhsBatch := []
  rhsBatch := []
  wf := dot_S8x16384x258_S512x258_S8x16384x512_2_1_01_0_n_n_wf
def scatter_S32768x512_S131072x1_S131072x512_1_0_0_1 : ScatterDims S32768x512 S131072x1 S131072x512 where
  updateWindowDims := [1]
  insertedWindowDims := [0]
  scatterDimsToOperandDims := [0]
  indexVectorDim := 1
  wf := scatter_S32768x512_S131072x1_S131072x512_1_0_0_1_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«112629_j26929444946666_2_alg».proof.Proof.LibRowLayers
import proofs.«112629_j26929444946666_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLayerNormRows.lean ====
/-
  Rows normalised to zero mean and unit variance, over the extended reals.

  A layer normalisation treats every row `f` of an `[a, n]` array alone. With a divisor `c` (the row length as a
  float) and a guard `e` added under the root:
    • the row's mean is `(∑ j, f j) / c`                                   (`rowMean`),
    • the centred row is `j ↦ f j − mean`                                  (`centred`),
    • the normalised row is `j ↦ centred j · rsqrt ((∑ k, centred k²) / c + e)`   (`normRow`).
  Division and the inverse root are the extended reals' own (`Ideal.div`, `Ideal.rsqrt`), so nothing here needs the
  entries to be finite.

  The second half reads the device's spelling of this, for any number of rows and lanes: a sum along the lanes, the
  result re-laid as a column `[a, 1]`, divided by a splat scalar, broadcast back along the lanes and subtracted; the
  squares summed and divided the same way; a splat guard added, the inverse root taken on the column, and the column
  broadcast back and multiplied in. Entry `(p, q)` of that array is `normRow c e (row p) q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«112629_j26929444946666_2_alg».proof.Proof.LibRowLayers
import proofs.«112629_j26929444946666_2_alg».proof.Proof.LibColumnBroadcast
import proofs.«112629_j26929444946666_2_alg».proof.Proof.LibChebRows

noncomputable section

namespace Cert.LayerNormRows

open Idealize.ShloMosaic Idealize.ShloMosaic.ValueIdx Cert.RowLayers

/-! ## The row functions -/

section Spec
variable {n : ℕ}

/-- The mean of a row with divisor `c`: `(∑ j, f j) / c`. -/
def rowMean (c : EReal) (f : Fin n → EReal) : EReal := Ideal.div (∑ j : Fin n, f j) c

/-- A row with its mean subtracted from every entry. -/
def centred (c : EReal) (f : Fin n → EReal) : Fin n → EReal := fun j => f j - rowMean c f

/-- A row normalised: centred, then scaled by the inverse root of its guarded variance. -/
def normRow (c e : EReal) (f : Fin n → EReal) : Fin n → EReal :=
  fun j => centred c f j * Ideal.rsqrt (rowMean c (fun k => centred c f k * centred c f k) + e)

/-- Rows that agree entry by entry have the same normalisation. -/
theorem normRow_congr (c e : EReal) {f g : Fin n → EReal} (h : ∀ j, f j = g j) : normRow c e f = normRow c e g := by
  rw [show f = g from funext h]

end Spec

/-! ## The device's spelling, read at an entry -/

section Device
variable {a n : ℕ} {φ : FTy}

/-- The column of row means: a lane sum re-laid as `[a, 1]` and divided by a splat `c` reads, at `(p, u)`, the
    mean of row `p`. -/
theorem meanColumn_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩) (c : Ideal φ)
    (p : Fin a) (u : Fin 1) :
    divf (shapeCast ⟨2, ![a, 1]⟩ (multiReduction .add [1] ⟨1, ![a]⟩ src acc hr hφ hacc) hc) (broadcast ⟨2, ![a, 1]⟩ c) (ix2 p u)
      = rowMean c (rowOf src p) := by
  show Ideal.div (shapeCast ⟨2, ![a, 1]⟩ (multiReduction .add [1] ⟨1, ![a]⟩ src acc hr hφ hacc) hc (ix2 p u)) c = _
  rw [Cert.ChebRows.shapeCast_a_a1_apply, Cert.ChebRows.multiReduction_add_row]
  rfl

/-- The array with each row's mean subtracted reads, at `(p, q)`, the centred row `p` at `q`. -/
theorem centredArray_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, n]⟩) (c : Ideal φ) (p : Fin a) (q : Fin n) :
    subf src (broadcastTo ⟨2, ![a, n]⟩
        (divf (shapeCast ⟨2, ![a, 1]⟩ (multiReduction .add [1] ⟨1, ![a]⟩ src acc hr hφ hacc) hc) (broadcast ⟨2, ![a, 1]⟩ c)) hb) (ix2 p q)
      = centred c (rowOf src p) q := by
  show src (ix2 p q) - broadcastTo ⟨2, ![a, n]⟩
        (divf (shapeCast ⟨2, ![a, 1]⟩ (multiReduction .add [1] ⟨1, ![a]⟩ src acc hr hφ hacc) hc) (broadcast ⟨2, ![a, 1]⟩ c)) hb (ix2 p q) = _
  rw [Cert.ColumnBroadcast.broadcastTo_a1_ab_apply, meanColumn_apply]
  rfl

/-- The whole normalisation in the device's spelling reads, at `(p, q)`, the normalised row `p` at `q`. -/
theorem normArray_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, n]⟩) (c e : Ideal φ) (p : Fin a) (q : Fin n)
    (d : FVec Ideal ⟨2, ![a, n]⟩ φ)
    (hd : d = subf src (broadcastTo ⟨2, ![a, n]⟩
        (divf (shapeCast ⟨2, ![a, 1]⟩ (multiReduction .add [1] ⟨1, ![a]⟩ src acc hr hφ hacc) hc) (broadcast ⟨2, ![a, 1]⟩ c)) hb)) :
    mulf d (broadcastTo ⟨2, ![a, n]⟩
        (rsqrt (addf (divf (shapeCast ⟨2, ![a, 1]⟩ (multiReduction .add [1] ⟨1, ![a]⟩ (mulf d d) acc hr hφ hacc) hc)
          (broadcast ⟨2, ![a, 1]⟩ c)) (broadcast ⟨2, ![a, 1]⟩ e))) hb) (ix2 p q)
      = normRow c e (rowOf src p) q := by
  have hrow : ∀ k : Fin n, d (ix2 p k) = centred c (rowOf src p) k := fun k => by
    rw [hd]; exact centredArray_apply src acc hr hφ hacc hc hb c p k
  show d (ix2 p q) * broadcastTo ⟨2, ![a, n]⟩
        (rsqrt (addf (divf (shapeCast ⟨2, ![a, 1]⟩ (multiReduction .add [1] ⟨1, ![a]⟩ (mulf d d) acc hr hφ hacc) hc)
          (broadcast ⟨2, ![a, 1]⟩ c)) (broadcast ⟨2, ![a, 1]⟩ e))) hb (ix2 p q) = _
  rw [Cert.ColumnBroadcast.broadcastTo_a1_ab_apply]
  show d (ix2 p q) * Ideal.rsqrt
      (divf (shapeCast ⟨2, ![a, 1]⟩ (multiReduction .add [1] ⟨1, ![a]⟩ (mulf d d) acc hr hφ hacc) hc)
          (broadcast ⟨2, ![a, 1]⟩ c) (ix2 p (0 : Fin 1)) + e) = _
  rw [meanColumn_apply, hrow q]
  have hsq : rowOf (mulf d d) p = fun k => centred c (rowOf src p) k * centred c (rowOf src p) k :=
    funext fun k => by
      show d (ix2 p k) * d (ix2 p k) = _
      rw [hrow k]
  rw [hsq]
  rfl

end Device

end Cert.LayerNormRows

end
-- ==== Proof.LnLinRows.lean ====
/-
  Layer normalisation followed by a linear layer without bias, row by row, over the extended reals.

  A token's row `x` (its features and its relative position set side by side) is normalised to zero mean and unit
  variance (`normRow`, with divisor `c` and guard `e`), scaled and shifted entry by entry by two vectors `w` and `b`
  (`affineNorm`), and sent through a weight matrix `W` read (output, input): entry `o` of the result is
  `∑ f, y f · W o f` (`project`). The composition is `lnLinRow`; `lnLinArr` applies it to every token of a
  `[B, N, ·]` batch whose rows are the two inputs' rows joined.

  One program takes the sum over all `n + 2` inputs at once; the other takes the first `n` in a matrix product and adds
  the last two terms one after the other. Addition on the extended reals is associative and commutative, so the two
  agree with no finiteness assumption: `sum_last_two`.
-/
import Mathlib.Algebra.BigOperators.Fin
import proofs.«112629_j26929444946666_2_alg».proof.Proof.LibLayerNormRows

noncomputable section

namespace Cert.LnLin

open Idealize.ShloMosaic Idealize.ShloMosaic.ValueIdx Cert.RowLayers Cert.LayerNormRows

/-! ## The two float constants both programs print -/

/-- The row length 258.0, the divisor of both means (the word 0x43810000). -/
def rowLen : EReal := Ideal.ofBits .f32 0x43810000#32

/-- The guard added to the variance under the root (the word 0x3727C5AC, the float nearest 1e-5). -/
def guard : EReal := Ideal.ofBits .f32 0x3727C5AC#32

/-! ## The row functions -/

section Rows
variable {n J : ℕ}

/-- A row normalised, then scaled by `w` and shifted by `b` entry by entry. -/
def affineNorm (c e : EReal) (w b : Fin n → EReal) (x : Fin n → EReal) : Fin n → EReal :=
  fun f => normRow c e x f * w f + b f

/-- A linear layer without bias whose weights are read (output, input): entry `o` is `∑ f, y f · W o f`. -/
def project (W : Fin J → Fin n → EReal) (y : Fin n → EReal) : Fin J → EReal :=
  fun o => ∑ f : Fin n, y f * W o f

/-- Normalise, scale and shift, project. -/
def lnLinRow (c e : EReal) (w b : Fin n → EReal) (W : Fin J → Fin n → EReal) (x : Fin n → EReal) : Fin J → EReal :=
  project W (affineNorm c e w b x)

theorem lnLinRow_apply (c e : EReal) (w b : Fin n → EReal) (W : Fin J → Fin n → EReal) (x : Fin n → EReal) (o : Fin J) :
    lnLinRow c e w b W x o = ∑ f : Fin n, affineNorm c e w b x f * W o f := rfl

/-- Rows that agree entry by entry have the same image. -/
theorem lnLinRow_congr (c e : EReal) (w b : Fin n → EReal) (W : Fin J → Fin n → EReal) {x x' : Fin n → EReal}
    (h : ∀ f, x f = x' f) : lnLinRow c e w b W x = lnLinRow c e w b W x' := by
  rw [show x = x' from funext h]

end Rows

/-! ## A sum with its last two terms taken apart -/

/-- A sum over `n + 2` indices is the sum over the first `n`, plus the term at `n`, plus the term at `n + 1`. -/
theorem sum_last_two {M : Type} [AddCommMonoid M] (n : ℕ) (g : Fin (n + 2) → M) :
    ∑ f : Fin (n + 2), g f
      = ((∑ k : Fin n, g ⟨k.val, Nat.lt_add_right 2 k.isLt⟩) + g ⟨n, Nat.lt_add_of_pos_right (by decide)⟩) + g ⟨n + 1, Nat.lt_succ_self _⟩ := by
  rw [Fin.sum_univ_castSucc, Fin.sum_univ_castSucc]
  rfl

/-! ## Every token of a batch -/

section Batch
variable {B N C D n J : ℕ}

/-- Token `(p, q)`'s row: its `C` features followed by its `D` relative coordinates. -/
def tokenRow (hn : n = C + D) (feat : (⟨3, ![B, N, C]⟩ : Shape).Idx → EReal) (rel : (⟨3, ![B, N, D]⟩ : Shape).Idx → EReal)
    (p : Fin B) (q : Fin N) : Fin n → EReal :=
  join hn (fun k => feat (ix3 p q k)) (fun k => rel (ix3 p q k))

/-- The layer applied to every token: entry `(p, q, o)` is `lnLinRow` of token `(p, q)`'s row at `o`. -/
def lnLinArr (hn : n = C + D) (c e : EReal) (feat : (⟨3, ![B, N, C]⟩ : Shape).Idx → EReal) (rel : (⟨3, ![B, N, D]⟩ : Shape).Idx → EReal)
    (w b : Fin n → EReal) (W : Fin J → Fin n → EReal) : (⟨3, ![B, N, J]⟩ : Shape).Idx → EReal :=
  fun i => lnLinRow c e w b W (tokenRow hn feat rel (i 0) (i 1)) (i 2)

theorem lnLinArr_ix3 (hn : n = C + D) (c e : EReal) (feat : (⟨3, ![B, N, C]⟩ : Shape).Idx → EReal) (rel : (⟨3, ![B, N, D]⟩ : Shape).Idx → EReal)
    (w b : Fin n → EReal) (W : Fin J → Fin n → EReal) (p : Fin B) (q : Fin N) (o : Fin J) :
    lnLinArr hn c e feat rel w b W (ix3 p q o) = lnLinRow c e w b W (tokenRow hn feat rel p q) o := rfl

/-- An array whose every entry is the layer of the token's row IS the layer's array. -/
theorem eq_lnLinArr_of_entries (hn : n = C + D) (c e : EReal) (feat : (⟨3, ![B, N, C]⟩ : Shape).Idx → EReal) (rel : (⟨3, ![B, N, D]⟩ : Shape).Idx → EReal)
    (w b : Fin n → EReal) (W : Fin J → Fin n → EReal) (A : (⟨3, ![B, N, J]⟩ : Shape).Idx → EReal)
    (hA : ∀ (p : Fin B) (q : Fin N) (o : Fin J), A (ix3 p q o) = lnLinRow c e w b W (tokenRow hn feat rel p q) o) :
    A = lnLinArr hn c e feat rel w b W :=
  funext fun i => (congrArg A (eq_ix3 i)).trans (hA (i 0) (i 1) (i 2))

end Batch

end Cert.LnLin

end
-- ==== Proof.KernelBody.lean ====
/-
  What the kernel's body leaves in its output block, read row by row over the extended reals.

  At a grid point the body holds a block of 4096 tokens: their features `x0 : [1, 4096, 256]`, their relative
  positions `x1 : [1, 4096, 2]`, the scale and shift rows `x2, x3 : [1, 258]` and the transposed weights
  `x4 : [258, 512]`. It joins each token's features and position into a row of 258 entries, normalises the row,
  scales and shifts it, multiplies the first 256 entries into the first 256 weight rows on the matrix unit, and adds
  the products of entries 256 and 257 with weight rows 256 and 257 one after the other. Entry `(0, r, o)` of the
  block it stores is therefore `lnLinRow` of token `r`'s joined row at `o`, the weights read (input, output):
  a sum of 258 terms taken as 256 + 1 + 1 (`sum_last_two`).
-/
import proofs.«112629_j26929444946666_2_alg».proof.Proof.Gen.KernelIdeal.Frame
import proofs.«112629_j26929444946666_2_alg».proof.Proof.LnLinRows
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx
open Cert.RowLayers Cert.LayerNormRows Cert.LnLin

/-! ## The stored block is the payload -/

theorem zero3 : (![0, 0, 0] : Fin 3 → Nat) = fun _ => 0 := funext fun a => by fin_cases a <;> rfl
theorem zero2 : (![0, 0] : Fin 2 → Nat) = fun _ => 0 := funext fun a => by fin_cases a <;> rfl

/-- The body's one store covers the whole output block and its loads read the whole input blocks, so the block it
    leaves is the stored value computed from the input blocks themselves. -/
theorem out_eq {F : FTy → Type} [FloatOps F] (x0 : Vec F S1x4096x256 .f32) (x1 : Vec F S1x4096x2 .f32) (x2 x3 : Vec F S1x258 .f32)
    (x4 : Vec F S258x512 .f32) :
    out0_5 x0 x1 x2 x3 x4
      = k0_pay1 (k0_pay4 x4) (k0_pay5 x0 x1 x2 x3) (k0_pay6 x0 x1 x2 x3 x4) (k0_pay7 x0 x1 x2 x3) (k0_pay8 x4) := by
  unfold out0_5
  rw [View.canon_unit_zero zero3]
  simp only [View.ld_unit_zero (S := S1x4096x256) zero3, View.ld_unit_zero (S := S1x4096x2) zero3,
    View.ld_unit_zero (S := S1x258) zero2, View.ld_unit_zero (S := S258x512) zero2]

/-! ## Small reads at coordinates -/

section Reads
variable {α : Type}

/-- The index `(0, r, k)` of a block with a leading unit axis is `(r, k)` with `0` put in front. -/
theorem cons_ix2 {a b : ℕ} (r : Fin a) (k : Fin b) :
    (Fin.cons (⟨0, Nat.one_pos⟩ : Fin 1) (ix2 r k) : (⟨3, ![1, a, b]⟩ : Shape).Idx) = ix3 (0 : Fin 1) r k := by
  funext i; match i with | ⟨0, _⟩ => rfl | ⟨1, _⟩ => rfl | ⟨2, _⟩ => rfl

/-- A `[1, a, b]` block viewed as `[a, b]` reads, on row `r`, the block's entries `(0, r, ·)`. -/
theorem rowOf_dropUnit {a b : ℕ} (v : (⟨3, ![1, a, b]⟩ : Shape).Idx → α)
    (h : (⟨3, ![1, a, b]⟩ : Shape).ShapeCasts ⟨2, ![a, b]⟩) (r : Fin a) :
    rowOf (shapeCast ⟨2, ![a, b]⟩ v h) r = fun k => v (ix3 (0 : Fin 1) r k) :=
  funext fun k => (shapeCast_dropUnit_apply ![a, b] v h (ix2 r k)).trans (congrArg v (cons_ix2 r k))

/-- An `[a, b]` value stored as a `[1, a, b]` block reads, at `(0, r, o)`, the value at `(r, o)`. -/
theorem addUnit_ix3 {a b : ℕ} (v : (⟨2, ![a, b]⟩ : Shape).Idx → α)
    (h : (⟨2, ![a, b]⟩ : Shape).ShapeCasts ⟨3, ![1, a, b]⟩) (r : Fin a) (o : Fin b) :
    shapeCast ⟨3, ![1, a, b]⟩ v h (ix3 (0 : Fin 1) r o) = v (ix2 r o) :=
  (shapeCast_addUnit_apply ![a, b] v h (ix3 (0 : Fin 1) r o)).trans
    (congrArg v (funext fun i => by match i with | ⟨0, _⟩ => rfl | ⟨1, _⟩ => rfl))

end Reads

/-- Scale-and-shift of arrays, at an entry. -/
theorem scaleShift_apply {a n : ℕ} (Nm Wt Bt : FVec Ideal ⟨2, ![a, n]⟩ .f32) (p : Fin a) (q : Fin n) :
    addf (mulf Nm Wt) Bt (ix2 p q) = Nm (ix2 p q) * Wt (ix2 p q) + Bt (ix2 p q) := rfl

/-- The matrix product plus two rank-one terms, at an entry. -/
theorem plusTwo_apply {a n : ℕ} (P A0 B0 A1 B1 : FVec Ideal ⟨2, ![a, n]⟩ .f32) (p : Fin a) (q : Fin n) :
    addf (addf P (mulf A0 B0)) (mulf A1 B1) (ix2 p q)
      = (P (ix2 p q) + A0 (ix2 p q) * B0 (ix2 p q)) + A1 (ix2 p q) * B1 (ix2 p q) := rfl

/-! ## The normalised, scaled and shifted rows -/

/-- Token `r`'s joined row inside a block: its 256 features, then its 2 relative coordinates. -/
def blockRow (x0 : Vec Ideal S1x4096x256 .f32) (x1 : Vec Ideal S1x4096x2 .f32) (r : Fin 4096) : Fin 258 → EReal :=
  join (rfl : 258 = 256 + 2) (fun k : Fin 256 => x0 (ix3 (0 : Fin 1) r k)) (fun k : Fin 2 => x1 (ix3 (0 : Fin 1) r k))

/-- The row the body feeds to the linear layer: the token's joined row normalised, scaled by the block `x2`'s one
    row and shifted by `x3`'s. -/
def fedRow (x0 : Vec Ideal S1x4096x256 .f32) (x1 : Vec Ideal S1x4096x2 .f32) (x2 x3 : Vec Ideal S1x258 .f32) (r : Fin 4096) :
    Fin 258 → EReal :=
  affineNorm rowLen guard (fun f => x2 (ix2 (0 : Fin 1) f)) (fun f => x3 (ix2 (0 : Fin 1) f)) (blockRow x0 x1 r)

/-- Entry `(r, f)` of the body's normalised array is `fedRow` of token `r` at `f`. -/
theorem pay2_apply (x0 : Vec Ideal S1x4096x256 .f32) (x1 : Vec Ideal S1x4096x2 .f32) (x2 x3 : Vec Ideal S1x258 .f32)
    (r : Fin 4096) (f : Fin 258) :
    k0_pay2 (F := Ideal) x0 x1 x2 x3 (ix2 r f) = fedRow x0 x1 x2 x3 r f := by
  unfold k0_pay2
  refine (scaleShift_apply _ _ _ r f).trans ?_
  refine congrArg₂ (· + ·) (congrArg₂ (· * ·) ?_ ?_) ?_
  · refine (normArray_apply _ _ _ _ _ _ _ _ _ r f _ rfl).trans ?_
    refine congrFun (congrArg (normRow rowLen guard) ?_) f
    refine (rowOf_concat_cols _ _ _ (rfl : 258 = 256 + 2) r).trans ?_
    exact congrArg₂ (join (rfl : 258 = 256 + 2)) (rowOf_dropUnit _ _ r) (rowOf_dropUnit _ _ r)
  · exact (broadcastTo_1b_ab_apply _ _ r f).trans (congrFun (shapeCast_self x2 _) _)
  · exact (broadcastTo_1b_ab_apply _ _ r f).trans (congrFun (shapeCast_self x3 _) _)

/-! ## The linear layer: 256 inputs on the matrix unit, the last two added after -/

/-- The body's matrix product contracts the operands' shared axis of 256: it reads the left operand at
    (output row, position) and the right one at (position, output column). -/
theorem dot_rowsTimesCols : RowsTimesCols dot_S4096x256_S256x512_S4096x512_1_0_0_1_n_n where
  rank := rfl
  size := rfl
  lhs0 := fun j q => by
    unfold DotDims.lhsIdx
    rw [dif_neg (show ¬(0 : Fin S4096x256.rank) ∈ dot_S4096x256_S256x512_S4096x512_1_0_0_1_n_n.lhsBatch by decide),
      dif_pos (show (0 : Fin S4096x256.rank) ∈ dot_S4096x256_S256x512_S4096x512_1_0_0_1_n_n.lhsNonContracting by decide)]
    rfl
  lhs1 := fun j q => dot_S4096x256_S256x512_S4096x512_1_0_0_1_n_n.lhsIdx_val_of_single rfl j q
  rhs0 := fun j q => dot_S4096x256_S256x512_S4096x512_1_0_0_1_n_n.rhsIdx_val_of_single rfl j q
  rhs1 := fun j q => by
    unfold DotDims.rhsIdx
    rw [dif_neg (show ¬(1 : Fin S256x512.rank) ∈ dot_S4096x256_S256x512_S4096x512_1_0_0_1_n_n.rhsBatch by decide),
      dif_pos (show (1 : Fin S256x512.rank) ∈ dot_S4096x256_S256x512_S4096x512_1_0_0_1_n_n.rhsNonContracting by decide)]
    rfl

/-- A sum over 258 indices with its last two terms taken apart. -/
theorem sum_258 (g : Fin 258 → EReal) :
    ∑ f : Fin 258, g f = ((∑ k : Fin 256, g ⟨k.val, by omega⟩) + g ⟨256, by decide⟩) + g ⟨257, by decide⟩ :=
  sum_last_two 256 g

/-- The matrix product's entry `(r, o)`: the first 256 entries of token `r`'s fed row against weight rows 0 … 255. -/
theorem pay6_apply (x0 : Vec Ideal S1x4096x256 .f32) (x1 : Vec Ideal S1x4096x2 .f32) (x2 x3 : Vec Ideal S1x258 .f32)
    (x4 : Vec Ideal S258x512 .f32) (r : Fin 4096) (o : Fin 512) :
    k0_pay6 (F := Ideal) x0 x1 x2 x3 x4 (ix2 r o)
      = ∑ k : Fin 256, fedRow x0 x1 x2 x3 r ⟨k.val, by omega⟩ * x4 (ix2 (⟨k.val, by omega⟩ : Fin 258) o) := by
  unfold k0_pay6 k0_pay3
  refine (congrFun (rowOf_matmul_zero dot_rowsTimesCols _ _ _ r) o).trans ?_
  refine Finset.sum_congr rfl fun k _ => congrArg₂ (· * ·) ?_ ?_
  · refine (congrFun (rowOf_slice_cols 0 _ _ r) k).trans ?_
    refine (pay2_apply x0 x1 x2 x3 r _).trans ?_
    exact congrArg (fedRow x0 x1 x2 x3 r) (Fin.ext (Nat.zero_add _))
  · exact (slice2_axis0_apply 0 _ _ k o (⟨k.val, by omega⟩ : Fin 258) (Nat.zero_add _).symm).trans
      (congrFun (shapeCast_self x4 _) _)

/-- Column `256 + u` of the fed rows, cut out as a `[4096, 1]` column and broadcast along the 512 outputs, reads token
    `r`'s fed entry `256 + u` everywhere on row `r`. -/
theorem fedColumn_apply (x0 : Vec Ideal S1x4096x256 .f32) (x1 : Vec Ideal S1x4096x2 .f32) (x2 x3 : Vec Ideal S1x258 .f32)
    (u : Fin 2) (h1 : S4096x2.Slices ![0, u.val] S4096x1) (hb : S4096x1.Broadcasts S4096x512) (r : Fin 4096) (o : Fin 512) :
    broadcastTo S4096x512 (extractStridedSlice S4096x1 ![0, u.val] (k0_pay5 (F := Ideal) x0 x1 x2 x3) h1) hb (ix2 r o)
      = fedRow x0 x1 x2 x3 r ⟨256 + u.val, by omega⟩ := by
  unfold k0_pay5
  refine (Cert.ColumnBroadcast.broadcastTo_a1_ab_apply _ hb r o).trans ?_
  refine (slice2_axis1_apply u.val _ h1 r (0 : Fin 1) u (Nat.add_zero _).symm).trans ?_
  refine (slice2_axis1_apply 256 _ _ r u (⟨256 + u.val, by omega⟩ : Fin 258) rfl).trans ?_
  exact pay2_apply x0 x1 x2 x3 r _

/-- Weight row `256 + u`, cut out as a `[1, 512]` row and broadcast down the 4096 tokens, reads that weight row on every
    token's row. -/
theorem weightRow_apply (x4 : Vec Ideal S258x512 .f32) (u : Fin 2) (h1 : S2x512.Slices ![u.val, 0] S1x512)
    (hb : S1x512.Broadcasts S4096x512) (r : Fin 4096) (o : Fin 512) :
    broadcastTo S4096x512 (extractStridedSlice S1x512 ![u.val, 0] (k0_pay4 (F := Ideal) x4) h1) hb (ix2 r o)
      = x4 (ix2 (⟨256 + u.val, by omega⟩ : Fin 258) o) := by
  unfold k0_pay4 k0_pay3
  refine (broadcastTo_1b_ab_apply _ hb r o).trans ?_
  refine (slice2_axis0_apply u.val _ h1 (0 : Fin 1) o u (Nat.add_zero _).symm).trans ?_
  refine (slice2_axis0_apply 256 _ _ u o (⟨256 + u.val, by omega⟩ : Fin 258) rfl).trans ?_
  exact congrFun (shapeCast_self x4 _) _

/-- ENTRY `(0, r, o)` OF THE BLOCK THE BODY STORES: the layer of token `r`'s joined row at output `o`, the block's
    scale and shift rows and its weights read (input, output). -/
theorem out_apply (x0 : Vec Ideal S1x4096x256 .f32) (x1 : Vec Ideal S1x4096x2 .f32) (x2 x3 : Vec Ideal S1x258 .f32)
    (x4 : Vec Ideal S258x512 .f32) (r : Fin 4096) (o : Fin 512) :
    out0_5 (F := Ideal) x0 x1 x2 x3 x4 (ix3 (0 : Fin 1) r o)
      = lnLinRow rowLen guard (fun f => x2 (ix2 (0 : Fin 1) f)) (fun f => x3 (ix2 (0 : Fin 1) f))
          (fun o f => x4 (ix2 f o)) (blockRow x0 x1 r) o := by
  refine (congrFun (out_eq x0 x1 x2 x3 x4) _).trans ?_
  refine Eq.trans ?_ (sum_258 (fun f => fedRow x0 x1 x2 x3 r f * x4 (ix2 f o))).symm
  unfold k0_pay1
  refine (addUnit_ix3 _ _ r o).trans ?_
  refine (plusTwo_apply _ _ _ _ _ r o).trans ?_
  refine congrArg₂ (· + ·) (congrArg₂ (· + ·) (pay6_apply x0 x1 x2 x3 x4 r o) (congrArg₂ (· * ·) ?_ ?_)) (congrArg₂ (· * ·) ?_ ?_)
  · unfold k0_pay7
    exact fedColumn_apply x0 x1 x2 x3 (0 : Fin 2) _ _ r o
  · unfold k0_pay8
    exact weightRow_apply x4 (0 : Fin 2) _ _ r o
  · exact fedColumn_apply x0 x1 x2 x3 (1 : Fin 2) _ _ r o
  · exact weightRow_apply x4 (1 : Fin 2) _ _ r o

end Cert.KernelIdeal.Body

end
-- ==== Proof.KernelArray.lean ====
/-
  From the blocks to the array: what the kernel's output array holds after the run.

  The grid has 8 × 4 points; point `(p, s)` stages tokens `4096·s … 4096·s + 4095` of batch `p` (features, relative
  positions) together with the whole scale, shift and weight arrays, and writes back the block `[p, 4096·s …, ·]` of
  the output. By the body's per-entry reading every stored entry is the layer of its token's joined row, and the 32
  blocks tile the `[8, 16384, 512]` array, so the array ends as `regionOut`: the layer applied to every token, as one
  function of the arrays the region finds.
-/
import proofs.«112629_j26929444946666_2_alg».proof.Proof.KernelBody

noncomputable section

namespace Cert.KernelIdeal.Arr

open Cert.KernelIdeal Cert.KernelIdeal.Gen Cert.KernelIdeal.Body Idealize.ShloMosaic Idealize.ShloMosaic.TcCoe Idealize.SL.Sem
open Idealize.ShloMosaic.ValueIdx Cert.RowLayers Cert.LnLin
open Idealize.ShloMosaic.Pipeline (Dat)

variable (m : (ℓ : Loc nD τ sig) → Buf (Elt Ideal) ℓ)

/-- The layer applied to every token, from the arrays as the region finds them: features and relative positions,
    the one row of the scale and of the shift array, the weights read (input, output). -/
def regionOut (c : Dev nD) : S8x16384x512.Idx → EReal :=
  lnLinArr (rfl : 258 = 256 + 2) rowLen guard
    (V m c main_arg1 : S8x16384x256.Idx → EReal) (V m c main_v30 : S8x16384x2.Idx → EReal)
    (fun f => (V m c main_v31 : S1x258.Idx → EReal) (ix2 (0 : Fin 1) f))
    (fun f => (V m c main_v32 : S1x258.Idx → EReal) (ix2 (0 : Fin 1) f))
    (fun o f => (V m c main_v33 : S258x512.Idx → EReal) (ix2 f o))

/-- The printed index maps, decided over the 32 grid points: the feature and position windows move with the output
    window, the other three stay at block 0, and the output's block indices stay in their ranges. -/
theorem idx_facts : ∀ t : Fin cfg0.N,
      win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 7 ∧ win0_5.index t (1 : Fin 3) ≤ 3 ∧ win0_5.index t (2 : Fin 3) = 0 :=
  (by decide +kernel : ∀ t : Fin grid0.N, _)

/-- Every block of the output array is some point's. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-! ## The blocks the body reads are the arrays' entries -/

/-- The scale window's one block is the whole `[1, 258]` array. -/
theorem scale_blk (c : Dev nD) (t : Fin cfg0.N) (f : Fin 258) :
    iblk m c 2 t (ix2 (0 : Fin 1) f) = (V m c main_v31 : S1x258.Idx → EReal) (ix2 (0 : Fin 1) f) := by
  obtain ⟨_, _, _, _, _, _, e20, e21, _⟩ := idx_facts t
  show (V m c main_v31 : S1x258.Idx → EReal) (((cfg0.win 2).blk t).view.emb (ix2 (0 : Fin 1) f)) = _
  refine congrArg (V m c main_v31 : S1x258.Idx → EReal) ?_
  funext a; apply Fin.ext
  match a with
  | ⟨0, _⟩ => show win0_2.index t (0 : Fin 2) * 1 + 1 * 0 = 0; omega
  | ⟨1, _⟩ => show win0_2.index t (1 : Fin 2) * 258 + 1 * f.val = f.val; omega

/-- The shift window's one block is the whole `[1, 258]` array. -/
theorem shift_blk (c : Dev nD) (t : Fin cfg0.N) (f : Fin 258) :
    iblk m c 3 t (ix2 (0 : Fin 1) f) = (V m c main_v32 : S1x258.Idx → EReal) (ix2 (0 : Fin 1) f) := by
  obtain ⟨_, _, _, _, _, _, _, _, e30, e31, _⟩ := idx_facts t
  show (V m c main_v32 : S1x258.Idx → EReal) (((cfg0.win 3).blk t).view.emb (ix2 (0 : Fin 1) f)) = _
  refine congrArg (V m c main_v32 : S1x258.Idx → EReal) ?_
  funext a; apply Fin.ext
  match a with
  | ⟨0, _⟩ => show win0_3.index t (0 : Fin 2) * 1 + 1 * 0 = 0; omega
  | ⟨1, _⟩ => show win0_3.index t (1 : Fin 2) * 258 + 1 * f.val = f.val; omega

/-- The weight window's one block is the whole `[258, 512]` array. -/
theorem weight_blk (c : Dev nD) (t : Fin cfg0.N) (f : Fin 258) (o : Fin 512) :
    iblk m c 4 t (ix2 f o) = (V m c main_v33 : S258x512.Idx → EReal) (ix2 f o) := by
  obtain ⟨_, _, _, _, _, _, _, _, _, _, e40, e41, _⟩ := idx_facts t
  show (V m c main_v33 : S258x512.Idx → EReal) (((cfg0.win 4).blk t).view.emb (ix2 f o)) = _
  refine congrArg (V m c main_v33 : S258x512.Idx → EReal) ?_
  funext a; apply Fin.ext
  match a with
  | ⟨0, _⟩ => show win0_4.index t (0 : Fin 2) * 258 + 1 * f.val = f.val; omega
  | ⟨1, _⟩ => show win0_4.index t (1 : Fin 2) * 512 + 1 * o.val = o.val; omega

/-- Token `r` of the feature block at a point is token `index₁ · 4096 + r` of batch `index₀`. -/
theorem feat_blk (c : Dev nD) (t : Fin cfg0.N) (r : Fin 4096) (k : Fin 256) (P : Fin 8) (Q : Fin 16384)
    (hP : P.val = win0_5.index t (0 : Fin 3)) (hQ : Q.val = win0_5.index t (1 : Fin 3) * 4096 + r.val) :
    iblk m c 0 t (ix3 (0 : Fin 1) r k) = (V m c main_arg1 : S8x16384x256.Idx → EReal) (ix3 P Q k) := by
  obtain ⟨e00, e01, e02, _⟩ := idx_facts t
  show (V m c main_arg1 : S8x16384x256.Idx → EReal) (((cfg0.win 0).blk t).view.emb (ix3 (0 : Fin 1) r k)) = _
  refine congrArg (V m c main_arg1 : S8x16384x256.Idx → EReal) ?_
  funext a; apply Fin.ext
  match a with
  | ⟨0, _⟩ => show win0_0.index t (0 : Fin 3) * 1 + 1 * 0 = P.val; omega
  | ⟨1, _⟩ => show win0_0.index t (1 : Fin 3) * 4096 + 1 * r.val = Q.val; omega
  | ⟨2, _⟩ => show win0_0.index t (2 : Fin 3) * 256 + 1 * k.val = k.val; omega

/-- The same for the relative-position block. -/
theorem rel_blk (c : Dev nD) (t : Fin cfg0.N) (r : Fin 4096) (k : Fin 2) (P : Fin 8) (Q : Fin 16384)
    (hP : P.val = win0_5.index t (0 : Fin 3)) (hQ : Q.val = win0_5.index t (1 : Fin 3) * 4096 + r.val) :
    iblk m c 1 t (ix3 (0 : Fin 1) r k) = (V m c main_v30 : S8x16384x2.Idx → EReal) (ix3 P Q k) := by
  obtain ⟨_, _, _, e10, e11, e12, _⟩ := idx_facts t
  show (V m c main_v30 : S8x16384x2.Idx → EReal) (((cfg0.win 1).blk t).view.emb (ix3 (0 : Fin 1) r k)) = _
  refine congrArg (V m c main_v30 : S8x16384x2.Idx → EReal) ?_
  funext a; apply Fin.ext
  match a with
  | ⟨0, _⟩ => show win0_1.index t (0 : Fin 3) * 1 + 1 * 0 = P.val; omega
  | ⟨1, _⟩ => show win0_1.index t (1 : Fin 3) * 4096 + 1 * r.val = Q.val; omega
  | ⟨2, _⟩ => show win0_1.index t (2 : Fin 3) * 2 + 1 * k.val = k.val; omega

/-- Entry `(0, r, o)` of the output block at a point sits at `(index₀, index₁ · 4096 + r, o)` of the output array. -/
theorem out_emb (t : Fin cfg0.N) (r : Fin 4096) (o : Fin 512) (P : Fin 8) (Q : Fin 16384)
    (hP : P.val = win0_5.index t (0 : Fin 3)) (hQ : Q.val = win0_5.index t (1 : Fin 3) * 4096 + r.val) :
    ((cfg0.win 5).blk t).view.emb (ix3 (0 : Fin 1) r o) = (ix3 P Q o : S8x16384x512.Idx) := by
  obtain ⟨_, _, _, _, _, _, _, _, _, _, _, _, _, _, e52⟩ := idx_facts t
  funext a; apply Fin.ext
  match a with
  | ⟨0, _⟩ => show win0_5.index t (0 : Fin 3) * 1 + 1 * 0 = P.val; omega
  | ⟨1, _⟩ => show win0_5.index t (1 : Fin 3) * 4096 + 1 * r.val = Q.val; omega
  | ⟨2, _⟩ => show win0_5.index t (2 : Fin 3) * 512 + 1 * o.val = o.val; omega

/-- The joined row of token `r` of the blocks at a point is the joined row of its token of the arrays. -/
theorem blockRow_eq (c : Dev nD) (t : Fin cfg0.N) (r : Fin 4096) (P : Fin 8) (Q : Fin 16384)
    (hP : P.val = win0_5.index t (0 : Fin 3)) (hQ : Q.val = win0_5.index t (1 : Fin 3) * 4096 + r.val) :
    blockRow (iblk m c 0 t) (iblk m c 1 t) r
      = tokenRow (rfl : 258 = 256 + 2) (V m c main_arg1 : S8x16384x256.Idx → EReal) (V m c main_v30 : S8x16384x2.Idx → EReal) P Q := by
  unfold blockRow tokenRow
  exact congrArg₂ (join (rfl : 258 = 256 + 2)) (funext fun k => feat_blk m c t r k P Q hP hQ) (funext fun k => rel_blk m c t r k P Q hP hQ)

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  have b0 : win0_5.index t (0 : Fin 3) ≤ 7 := (idx_facts t).2.2.2.2.2.2.2.2.2.2.2.2.1
  have b1 : win0_5.index t (1 : Fin 3) ≤ 3 := (idx_facts t).2.2.2.2.2.2.2.2.2.2.2.2.2.1
  refine funext fun (j : S1x4096x512.Idx) => ?_
  obtain ⟨u, r, o, rfl⟩ : ∃ (u : Fin 1) (r : Fin 4096) (o : Fin 512), j = ix3 u r o := ⟨j 0, j 1, j 2, eq_ix3 j⟩
  obtain rfl : u = 0 := Subsingleton.elim _ _
  have hr : r.val < 4096 := r.isLt
  refine (out_apply (iblk m c 0 t) (iblk m c 1 t) (iblk m c 2 t) (iblk m c 3 t) (iblk m c 4 t) r o).trans ?_
  refine Eq.trans ?_ (congrArg (regionOut m c)
    (out_emb t r o ⟨win0_5.index t (0 : Fin 3), by omega⟩ ⟨win0_5.index t (1 : Fin 3) * 4096 + r.val, by omega⟩ rfl rfl)).symm
  rw [blockRow_eq m c t r ⟨win0_5.index t (0 : Fin 3), by omega⟩ ⟨win0_5.index t (1 : Fin 3) * 4096 + r.val, by omega⟩ rfl rfl,
    show (fun f : Fin 258 => iblk m c 2 t (ix2 (0 : Fin 1) f)) = (fun f => (V m c main_v31 : S1x258.Idx → EReal) (ix2 (0 : Fin 1) f)) from
      funext fun f => scale_blk m c t f,
    show (fun f : Fin 258 => iblk m c 3 t (ix2 (0 : Fin 1) f)) = (fun f => (V m c main_v32 : S1x258.Idx → EReal) (ix2 (0 : Fin 1) f)) from
      funext fun f => shift_blk m c t f,
    show (fun (o : Fin 512) (f : Fin 258) => iblk m c 4 t (ix2 f o)) = (fun o f => (V m c main_v33 : S258x512.Idx → EReal) (ix2 f o)) from
      funext fun o => funext fun f => weight_blk m c t f o]
  rfl

/-- An index of the array is in point `t`'s block iff each coordinate is in the block's range on its axis. -/
theorem mem_blk (t : Fin cfg0.N) (i : S8x16384x512.Idx) :
    i ∈ ((cfg0.win 5).blk t).view.set ↔ ∀ a : Fin 3, win0_5.index t a * S1x4096x512.size a ≤ (i a).val
      ∧ (i a).val < win0_5.index t a * S1x4096x512.size a + S1x4096x512.size a := by
  show i ∈ ((View.whole main_v34).slice (win0_5.rect t)).set ↔ _
  rw [View.set_slice_whole, Rect.mem_set_unit]
  exact Iff.rfl

/-- The 32 blocks cover the array: entry `(p, q, o)` is in the block of the point with indices `(p, q / 4096)`. -/
theorem cover (i : S8x16384x512.Idx) : ∃ t : Fin cfg0.N, (cfg0.win 5).flush t = true ∧ i ∈ ((cfg0.win 5).blk t).view.set := by
  have hi0 : (i 0).val < 8 := (i 0).isLt
  have hi1 : (i 1).val < 16384 := (i 1).isLt
  have hi2 : (i 2).val < 512 := (i 2).isLt
  obtain ⟨t, ht⟩ := idx_onto ⟨(i 0).val, hi0⟩ ⟨(i 1).val / 4096, by omega⟩
  have q0 : win0_5.index t (0 : Fin 3) = (i 0).val := congrFun ht 0
  have q1 : win0_5.index t (1 : Fin 3) = (i 1).val / 4096 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 512 ≤ (i 2).val ∧ (i 2).val < win0_5.index t (2 : Fin 3) * 512 + 512; omega

/-- THE OUTPUT ARRAY after the run is the layer applied to every token. -/
theorem final (c : Dev nD) : (dats m 0 c).arrAt 5 cfg0.N = regionOut m c :=
  (dats m 0 c).arrAt_eq_of_cover 5 (regionOut m c) (fun t _ => flushed_eq m c t) cover

end Cert.KernelIdeal.Arr

end
-- ==== Proof.KernelPrefix.lean ====
/-
  The host lines before the kernel's region, read as functions of the arguments.

  Before it launches the fused layer the kernel's @main computes, on the host, exactly what the reference computes
  first: positions divided by their per-coordinate maximum, segment ids, cluster counts and their floor at one, cluster
  mean positions, and each token's position relative to its cluster's mean (through a gather whose operations move
  their operands along "this buffer holds a value of this type", the identity). Each of those buffers, as the region
  finds it, is therefore the reference's stage function of the same arguments. The three small arrays the region also
  stages are re-layouts of arguments: the scale and shift vectors given a leading unit axis, and the weights transposed.
-/
import proofs.«112629_j26929444946666_2_alg».proof.Proof.Gen.KernelIdeal.Frame
import proofs.«112629_j26929444946666_2_alg».proof.Proof.RefRead
import Idealize.ShloMosaic.Lib.Pipeline.Value
import Idealize.ShloMosaic.Lib.ValueIdx

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-! ## From any contents: the fold of the lines before the region -/

set_option maxHeartbeats 4000000 in
/-- The flattened segment ids. -/
theorem before_seg (W : Valuation τ sig (Elt F)) :
    after (List.flatten [hostOps0 (F := F), hostOps0_1, hostOps0_2]) W (Proc.devRef .tc main_v11)
      = Cert.ReferenceIdeal.Read.val_main_v11 (F := F) (W (Proc.devRef .tc main_arg2)) := by
  simp only [hostOps0, hostOps0_1, hostOps0_2, List.flatten_cons, List.flatten_nil, List.append_nil, List.cons_append, List.nil_append]
  after_results_simp
  rfl

set_option maxHeartbeats 4000000 in
/-- The cluster counts. -/
theorem before_count (W : Valuation τ sig (Elt F)) :
    after (List.flatten [hostOps0 (F := F), hostOps0_1, hostOps0_2]) W (Proc.devRef .tc main_v16)
      = Cert.ReferenceIdeal.Read.val_main_v16 (F := F) (W (Proc.devRef .tc main_arg2)) := by
  simp only [hostOps0, hostOps0_1, hostOps0_2, List.flatten_cons, List.flatten_nil, List.append_nil, List.cons_append, List.nil_append]
  after_results_simp
  rfl

set_option maxHeartbeats 4000000 in
/-- The counts floored at one. -/
theorem before_safe (W : Valuation τ sig (Elt F)) :
    after (List.flatten [hostOps0 (F := F), hostOps0_1, hostOps0_2]) W (Proc.devRef .tc main_v18)
      = Cert.ReferenceIdeal.Read.val_main_v18 (F := F) (W (Proc.devRef .tc main_arg2)) := by
  simp only [hostOps0, hostOps0_1, hostOps0_2, List.flatten_cons, List.flatten_nil, List.append_nil, List.cons_append, List.nil_append]
  after_results_simp
  rfl

set_option maxHeartbeats 4000000 in
/-- The cluster mean positions. -/
theorem before_mean (W : Valuation τ sig (Elt F)) :
    after (List.flatten [hostOps0 (F := F), hostOps0_1, hostOps0_2]) W (Proc.devRef .tc main_v26)
      = Cert.ReferenceIdeal.Read.val_main_v26 (F := F) (W (Proc.devRef .tc main_arg0)) (W (Proc.devRef .tc main_arg2)) := by
  simp only [hostOps0, hostOps0_1, hostOps0_2, List.flatten_cons, List.flatten_nil, List.append_nil, List.cons_append, List.nil_append]
  after_results_simp
  rfl

set_option maxHeartbeats 8000000 in
/-- The relative positions. -/
theorem before_rel (W : Valuation τ sig (Elt F)) :
    after (List.flatten [hostOps0 (F := F), hostOps0_1, hostOps0_2]) W (Proc.devRef .tc main_v30)
      = Cert.ReferenceIdeal.Read.val_main_v30 (F := F) (W (Proc.devRef .tc main_arg0)) (W (Proc.devRef .tc main_arg2)) := by
  simp only [hostOps0, hostOps0_1, hostOps0_2, List.flatten_cons, List.flatten_nil, List.append_nil, List.cons_append, List.nil_append]
  after_results_simp
  simp only [cast_eq]
  rfl

set_option maxHeartbeats 4000000 in
/-- The scale vector with a leading unit axis: its one row is the vector. -/
theorem before_scale (W : Valuation τ sig (Elt F)) (f : Fin 258) :
    (after (List.flatten [hostOps0 (F := F), hostOps0_1, hostOps0_2]) W (Proc.devRef .tc main_v31) : S1x258.Idx → Elt F .f32) (ix2 (0 : Fin 1) f)
      = ((W (Proc.devRef .tc main_arg3)) : S258.Idx → Elt F .f32) (ix1 f) := by
  simp only [hostOps0, hostOps0_1, hostOps0_2, List.flatten_cons, List.flatten_nil, List.append_nil, List.cons_append, List.nil_append]
  after_results_simp
  exact (shapeCast_addUnit_apply ![258] _ _ (ix2 (0 : Fin 1) f)).trans
    (congrArg _ (funext fun a => by match a with | ⟨0, _⟩ => rfl))

set_option maxHeartbeats 4000000 in
/-- The shift vector with a leading unit axis: its one row is the vector. -/
theorem before_shift (W : Valuation τ sig (Elt F)) (f : Fin 258) :
    (after (List.flatten [hostOps0 (F := F), hostOps0_1, hostOps0_2]) W (Proc.devRef .tc main_v32) : S1x258.Idx → Elt F .f32) (ix2 (0 : Fin 1) f)
      = ((W (Proc.devRef .tc main_arg4)) : S258.Idx → Elt F .f32) (ix1 f) := by
  simp only [hostOps0, hostOps0_1, hostOps0_2, List.flatten_cons, List.flatten_nil, List.append_nil, List.cons_append, List.nil_append]
  after_results_simp
  exact (shapeCast_addUnit_apply ![258] _ _ (ix2 (0 : Fin 1) f)).trans
    (congrArg _ (funext fun a => by match a with | ⟨0, _⟩ => rfl))

set_option maxHeartbeats 4000000 in
/-- The transposed weights read (input, output) are the weights read (output, input). -/
theorem before_weight (W : Valuation τ sig (Elt F)) (f : Fin 258) (o : Fin 512) :
    (after (List.flatten [hostOps0 (F := F), hostOps0_1, hostOps0_2]) W (Proc.devRef .tc main_v33) : S258x512.Idx → Elt F .f32) (ix2 f o)
      = ((W (Proc.devRef .tc main_arg5)) : S512x258.Idx → Elt F .f32) (ix2 o f) := by
  simp only [hostOps0, hostOps0_1, hostOps0_2, List.flatten_cons, List.flatten_nil, List.append_nil, List.cons_append, List.nil_append]
  after_results_simp
  exact transpose_apply [1, 0] _ _ (ix2 f o) (ix2 o f) (fun b => by match b with | ⟨0, _⟩ => rfl | ⟨1, _⟩ => rfl)

end Cert.KernelIdeal.Host

end
-- ==== Proof.KernelTail.lean ====
/-
  The host lines after the kernel's region, read as the reference's last stages.

  After the region the kernel's @main pools the layer's output by cluster (a segment sum, divided by the floored
  counts), masks it, masks the cluster mean positions, and emits the mask — the same operations, with the same
  constants, as the reference's last lines. So from any contents in which the segment ids, the counts, their floor, the
  mean positions and the layer's output are the reference's stages of some arguments, the three result buffers end as
  the reference's three result stages of those arguments.
-/
import proofs.«112629_j26929444946666_2_alg».proof.Proof.Gen.KernelIdeal.Frame
import proofs.«112629_j26929444946666_2_alg».proof.Proof.RefRead

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- The masked cluster mean positions. -/
theorem after_pos (U : Valuation τ sig (Elt F)) (x0 : (⟨Cert.ReferenceIdeal.S8x16384x2, .f32⟩ : BufTy).Contents (Elt F)) (x2 : (⟨Cert.ReferenceIdeal.S8x16384, .i32⟩ : BufTy).Contents (Elt F))
    (hmean : U (Proc.devRef .tc main_v26) = Cert.ReferenceIdeal.Read.val_main_v26 (F := F) x0 x2)
    (hcount : U (Proc.devRef .tc main_v16) = Cert.ReferenceIdeal.Read.val_main_v16 (F := F) x2) :
    after (hostOps1 (F := F)) U (Proc.devRef .tc main_v51) = Cert.ReferenceIdeal.Read.val_main_v73 (F := F) x0 x2 := by
  after_results_simp
  rw [hmean, hcount]
  rfl

set_option maxHeartbeats 4000000 in
/-- The mask. -/
theorem after_mask (U : Valuation τ sig (Elt F)) (x2 : (⟨Cert.ReferenceIdeal.S8x16384, .i32⟩ : BufTy).Contents (Elt F))
    (hcount : U (Proc.devRef .tc main_v16) = Cert.ReferenceIdeal.Read.val_main_v16 (F := F) x2) :
    after (hostOps1 (F := F)) U (Proc.devRef .tc main_v52) = Cert.ReferenceIdeal.Read.val_main_v74 (F := F) x2 := by
  after_results_simp
  rw [hcount]
  rfl

set_option maxHeartbeats 4000000 in
/-- The masked pooled features. -/
theorem after_feat (U : Valuation τ sig (Elt F)) (x0 : (⟨Cert.ReferenceIdeal.S8x16384x2, .f32⟩ : BufTy).Contents (Elt F)) (x1 : (⟨Cert.ReferenceIdeal.S8x16384x256, .f32⟩ : BufTy).Contents (Elt F)) (x2 : (⟨Cert.ReferenceIdeal.S8x16384, .i32⟩ : BufTy).Contents (Elt F)) (x3 x4 : (⟨Cert.ReferenceIdeal.S258, .f32⟩ : BufTy).Contents (Elt F)) (x5 : (⟨Cert.ReferenceIdeal.S512x258, .f32⟩ : BufTy).Contents (Elt F))
    (hseg : U (Proc.devRef .tc main_v11) = Cert.ReferenceIdeal.Read.val_main_v11 (F := F) x2)
    (hcount : U (Proc.devRef .tc main_v16) = Cert.ReferenceIdeal.Read.val_main_v16 (F := F) x2)
    (hsafe : U (Proc.devRef .tc main_v18) = Cert.ReferenceIdeal.Read.val_main_v18 (F := F) x2)
    (hlayer : U (Proc.devRef .tc main_v34) = Cert.ReferenceIdeal.Read.val_main_v56 (F := F) x0 x1 x2 x3 x4 x5) :
    after (hostOps1 (F := F)) U (Proc.devRef .tc main_v48) = Cert.ReferenceIdeal.Read.val_main_v70 (F := F) x0 x1 x2 x3 x4 x5 := by
  after_results_simp
  rw [hseg, hcount, hsafe, hlayer]
  rfl

end Cert.KernelIdeal.Host

end
-- ==== Proof.RefLayer.lean ====
/-
  The reference's layer normalisation and linear layer, read entry by entry over the extended reals.

  The reference joins features and relative positions along the last axis of a `[8, 16384, ·]` array, takes each
  token's mean and variance by a sum over that axis divided by 258.0, multiplies the centred row by the inverse root of
  the guarded variance, by the scale vector and adds the shift vector (both broadcast over the tokens), and contracts
  the result with the weight matrix `[512, 258]` along its second axis. Read at `(p, q, o)` through the stages' read
  lemmas, that is `lnLinRow` of token `(p, q)`'s joined row at `o`: the whole array is `lnLinArr`.
-/
import proofs.«112629_j26929444946666_2_alg».proof.Proof.RefRead
import proofs.«112629_j26929444946666_2_alg».proof.Proof.LnLinRows
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx
open Cert.RowLayers Cert.LayerNormRows Cert.LnLin

/-! ## The stages' index maps at coordinates -/

section Indices
variable (p : Fin 8) (q : Fin 16384)

theorem idx_mean (k : Fin 258) : idx_main_v32 (idx_main_v33 (ix3 p q (0 : Fin 1))) k = ix3 p q k := funext fun a => Fin.ext (by match a with | ⟨0, _⟩ => rfl | ⟨1, _⟩ => rfl | ⟨2, _⟩ => rfl)
theorem idx_var (k : Fin 258) : idx_main_v39 (idx_main_v40 (ix3 p q (0 : Fin 1))) k = ix3 p q k := funext fun a => Fin.ext (by match a with | ⟨0, _⟩ => rfl | ⟨1, _⟩ => rfl | ⟨2, _⟩ => rfl)
theorem idx_col36 (f : Fin 258) : idx_main_v36 (ix3 p q f) = ix3 p q (0 : Fin 1) := funext fun a => Fin.ext (by match a with | ⟨0, _⟩ => rfl | ⟨1, _⟩ => rfl | ⟨2, _⟩ => rfl)
theorem idx_col43 (f : Fin 258) : idx_main_v43 (ix3 p q f) = ix3 p q (0 : Fin 1) := funext fun a => Fin.ext (by match a with | ⟨0, _⟩ => rfl | ⟨1, _⟩ => rfl | ⟨2, _⟩ => rfl)
theorem idx_col48 (f : Fin 258) : idx_main_v48 (ix3 p q f) = ix3 p q (0 : Fin 1) := funext fun a => Fin.ext (by match a with | ⟨0, _⟩ => rfl | ⟨1, _⟩ => rfl | ⟨2, _⟩ => rfl)
theorem idx_scale (f : Fin 258) : idx_main_v50 (idx_main_v51 (ix3 p q f)) = ix1 f :=
  funext fun a => Fin.ext (by match a with | ⟨0, _⟩ => rfl)
theorem idx_shift (f : Fin 258) : idx_main_v53 (idx_main_v54 (ix3 p q f)) = ix1 f :=
  funext fun a => Fin.ext (by match a with | ⟨0, _⟩ => rfl)
theorem idx_lhs (o : Fin 512) (k : Fin 258) : lidx_main_v56 (ix3 p q o) k = ix3 p q k := funext fun a => Fin.ext (by match a with | ⟨0, _⟩ => rfl | ⟨1, _⟩ => rfl | ⟨2, _⟩ => rfl)
theorem idx_rhs (o : Fin 512) (k : Fin 258) : ridx_main_v56 (ix3 p q o) k = ix2 o k :=
  funext fun a => Fin.ext (by match a with | ⟨0, _⟩ => rfl | ⟨1, _⟩ => rfl)

end Indices

/-! ## One token's row through the stages -/

section Stages
variable (x0 : (⟨S8x16384x2, .f32⟩ : BufTy).Contents (Elt Ideal)) (x1 : (⟨S8x16384x256, .f32⟩ : BufTy).Contents (Elt Ideal)) (x2 : (⟨S8x16384, .i32⟩ : BufTy).Contents (Elt Ideal)) (x3 x4 : (⟨S258, .f32⟩ : BufTy).Contents (Elt Ideal)) (x5 : (⟨S512x258, .f32⟩ : BufTy).Contents (Elt Ideal))
variable (p : Fin 8) (q : Fin 16384)

/-- Token `(p, q)`'s row of the joined array. -/
def joinedRow : Fin 258 → EReal := fun f => val_main_v31 (F := Ideal) x0 x1 x2 (ix3 p q f)

/-- The column of means at token `(p, q)` is the mean of its joined row. -/
theorem mean_apply : val_main_v35 (F := Ideal) x0 x1 x2 (ix3 p q (0 : Fin 1)) = rowMean rowLen (joinedRow x0 x1 x2 p q) := by
  rw [val_main_v35_apply, val_main_v33_apply, val_main_v34_apply, val_main_v32_apply]
  show Ideal.div (Ideal.ofBits .f32 0x00000000#32
      + ∑ k : Fin 258, val_main_v31 (F := Ideal) x0 x1 x2 (idx_main_v32 (idx_main_v33 (ix3 p q (0 : Fin 1))) k))
    (Ideal.ofBits .f32 0x43810000#32) = _
  rw [Ideal.ofBits_zero_f32, zero_add]
  exact congrArg (fun s => Ideal.div s rowLen)
    (Finset.sum_congr rfl fun k _ => congrArg (val_main_v31 (F := Ideal) x0 x1 x2) (idx_mean p q k))

/-- The centred array, in its first printing. -/
theorem centred_apply (f : Fin 258) :
    val_main_v37 (F := Ideal) x0 x1 x2 (ix3 p q f) = centred rowLen (joinedRow x0 x1 x2 p q) f := by
  rw [val_main_v37_apply, val_main_v36_apply, idx_col36, mean_apply]
  rfl

/-- The centred array, in its second printing. -/
theorem centred_apply' (f : Fin 258) :
    val_main_v44 (F := Ideal) x0 x1 x2 (ix3 p q f) = centred rowLen (joinedRow x0 x1 x2 p q) f := by
  rw [val_main_v44_apply, val_main_v43_apply, idx_col43, mean_apply]
  rfl

/-- The column of variances at token `(p, q)` is the mean of the squares of its centred row. -/
theorem var_apply : val_main_v42 (F := Ideal) x0 x1 x2 (ix3 p q (0 : Fin 1))
    = rowMean rowLen (fun k => centred rowLen (joinedRow x0 x1 x2 p q) k * centred rowLen (joinedRow x0 x1 x2 p q) k) := by
  rw [val_main_v42_apply, val_main_v40_apply, val_main_v41_apply, val_main_v39_apply]
  show Ideal.div (Ideal.ofBits .f32 0x00000000#32
      + ∑ k : Fin 258, val_main_v38 (F := Ideal) x0 x1 x2 (idx_main_v39 (idx_main_v40 (ix3 p q (0 : Fin 1))) k))
    (Ideal.ofBits .f32 0x43810000#32) = _
  rw [Ideal.ofBits_zero_f32, zero_add]
  refine congrArg (fun s => Ideal.div s rowLen) (Finset.sum_congr rfl fun k _ => ?_)
  rw [idx_var p q k, val_main_v38_apply, centred_apply]
  rfl

/-- The normalised array at `(p, q, f)` is the normalised joined row at `f`. -/
theorem norm_apply (f : Fin 258) :
    val_main_v49 (F := Ideal) x0 x1 x2 (ix3 p q f) = normRow rowLen guard (joinedRow x0 x1 x2 p q) f := by
  rw [val_main_v49_apply, centred_apply', val_main_v48_apply, idx_col48, val_main_v47_apply, val_main_v46_apply, var_apply,
    val_main_v45_apply]
  rfl

/-- Scaled and shifted. -/
theorem fed_apply (f : Fin 258) :
    val_main_v55 (F := Ideal) x0 x1 x2 x3 x4 (ix3 p q f)
      = affineNorm rowLen guard (fun f => x3 (ix1 f)) (fun f => x4 (ix1 f)) (joinedRow x0 x1 x2 p q) f := by
  rw [val_main_v55_apply, val_main_v52_apply, norm_apply, val_main_v51_apply, val_main_v50_apply, idx_scale, val_main_v54_apply,
    val_main_v53_apply, idx_shift]
  rfl

/-- The linear layer's entry `(p, q, o)`. -/
theorem layer_apply (o : Fin 512) :
    val_main_v56 (F := Ideal) x0 x1 x2 x3 x4 x5 (ix3 p q o)
      = lnLinRow rowLen guard (fun f => x3 (ix1 f)) (fun f => x4 (ix1 f)) (fun o f => x5 (ix2 o f)) (joinedRow x0 x1 x2 p q) o := by
  rw [val_main_v56_apply, lnLinRow_apply]
  refine Finset.sum_congr rfl fun k _ => ?_
  rw [idx_lhs p q o k, idx_rhs p q o k, fed_apply]

/-- The joined row is the token's features followed by its relative coordinates. -/
theorem joinedRow_eq :
    joinedRow x0 x1 x2 p q
      = tokenRow (rfl : 258 = 256 + 2) (x1 : S8x16384x256.Idx → EReal) (val_main_v30 (F := Ideal) x0 x2 : S8x16384x2.Idx → EReal) p q := by
  funext f
  unfold joinedRow val_main_v31 tokenRow join
  by_cases hf : f.val < 256
  · rw [dif_pos hf]
    exact concatenate_pair_apply_left (t := S8x16384x258) (s₁ := S8x16384x256) (s₂ := S8x16384x2) 2 x1 (val_main_v30 (F := Ideal) x0 x2)
      _ (ix3 p q f) rfl (ix3 p q (⟨f.val, hf⟩ : Fin 256)) (fun ax => by
      match ax with
      | ⟨0, _⟩ => rfl
      | ⟨1, _⟩ => rfl
      | ⟨2, _⟩ => rfl)
  · rw [dif_neg hf]
    have hf' : 256 ≤ f.val := Nat.le_of_not_lt hf
    exact concatenate_pair_apply_right (t := S8x16384x258) (s₁ := S8x16384x256) (s₂ := S8x16384x2) 2 x1 (val_main_v30 (F := Ideal) x0 x2)
      _ (ix3 p q f) rfl rfl (ix3 p q (⟨f.val - 256, by have := f.isLt; omega⟩ : Fin 2))
      (fun ax hne => by
        match ax with
        | ⟨0, _⟩ => rfl
        | ⟨1, _⟩ => rfl
        | ⟨2, _⟩ => exact absurd rfl hne)
      (by show f.val - 256 + 256 = f.val; omega)

/-- THE REFERENCE'S LINEAR-LAYER STAGE is the layer applied to every token of the arguments and of the relative positions. -/
theorem layer_eq :
    (val_main_v56 (F := Ideal) x0 x1 x2 x3 x4 x5 : S8x16384x512.Idx → EReal)
      = lnLinArr (rfl : 258 = 256 + 2) rowLen guard (x1 : S8x16384x256.Idx → EReal) (val_main_v30 (F := Ideal) x0 x2 : S8x16384x2.Idx → EReal)
          (fun f => x3 (ix1 f)) (fun f => x4 (ix1 f)) (fun o f => x5 (ix2 o f)) :=
  eq_lnLinArr_of_entries _ _ _ _ _ _ _ _ _ fun p q o => by
    rw [layer_apply, joinedRow_eq]

end Stages

end Cert.ReferenceIdeal.Layer

end
-- ==== Proof.KernelValue.lean ====
/-
  The kernel's run, with its three results stated as the reference's stage functions of the arguments.

  The pieces: the lines before the region leave the segment ids, counts, mean positions and relative positions at the
  reference's stages of the arguments, and the scale, shift and weight arrays at re-layouts of the arguments
  (KernelPrefix); the region leaves its output array at the layer applied to every token of what it found
  (KernelArray), which is the reference's linear-layer stage of the arguments (RefLayer); the lines after the region
  turn those into the reference's three result stages (KernelTail). The frame run supplies the final memory: every
  buffer that is no array of the pipeline ends as the lines after the region leave it.
-/
import proofs.«112629_j26929444946666_2_alg».proof.Proof.KernelArray
import proofs.«112629_j26929444946666_2_alg».proof.Proof.KernelPrefix
import proofs.«112629_j26929444946666_2_alg».proof.Proof.KernelTail
import proofs.«112629_j26929444946666_2_alg».proof.Proof.RefLayer

noncomputable section

namespace Cert.KernelIdeal.Result

open Cert.KernelIdeal Cert.KernelIdeal.Gen Cert.KernelIdeal.Host
open Idealize.ShloMosaic Idealize.ShloMosaic.TcCoe Idealize.SL.Sem Idealize.ShloMosaic.StableHlo Idealize.ShloMosaic.ValueIdx
open Cert.LnLin

variable (m : (ℓ : Loc nD τ sig) → Buf (Elt Ideal) ℓ) (ρ : Dev nD → PrngReg)

/-! ## What the region finds -/

theorem V_seg (c : Dev nD) : V m c main_v11 = Cert.ReferenceIdeal.Read.val_main_v11 (F := Ideal) (m ((c : Thread nD τ).loc main_arg2)) := before_seg _
theorem V_count (c : Dev nD) : V m c main_v16 = Cert.ReferenceIdeal.Read.val_main_v16 (F := Ideal) (m ((c : Thread nD τ).loc main_arg2)) := before_count _
theorem V_safe (c : Dev nD) : V m c main_v18 = Cert.ReferenceIdeal.Read.val_main_v18 (F := Ideal) (m ((c : Thread nD τ).loc main_arg2)) := before_safe _
theorem V_mean (c : Dev nD) : V m c main_v26 = Cert.ReferenceIdeal.Read.val_main_v26 (F := Ideal) (m ((c : Thread nD τ).loc main_arg0)) (m ((c : Thread nD τ).loc main_arg2)) := before_mean _
theorem V_rel (c : Dev nD) : V m c main_v30 = Cert.ReferenceIdeal.Read.val_main_v30 (F := Ideal) (m ((c : Thread nD τ).loc main_arg0)) (m ((c : Thread nD τ).loc main_arg2)) := before_rel _

/-- The region's output array is the reference's linear-layer stage of the arguments. -/
theorem regionOut_eq (c : Dev nD) :
    Arr.regionOut m c = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (Cert.ReferenceIdeal.Layer.layer_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
  unfold Arr.regionOut
  rw [V_main_arg1 m c, V_rel m c,
    show (fun f : Fin 258 => (V m c main_v31 : S1x258.Idx → EReal) (ix2 (0 : Fin 1) f))
        = (fun f => ((m ((c : Thread nD τ).loc main_arg3)) : S258.Idx → EReal) (ix1 f)) from funext fun f => before_scale _ f,
    show (fun f : Fin 258 => (V m c main_v32 : S1x258.Idx → EReal) (ix2 (0 : Fin 1) f))
        = (fun f => ((m ((c : Thread nD τ).loc main_arg4)) : S258.Idx → EReal) (ix1 f)) from funext fun f => before_shift _ f,
    show (fun (o : Fin 512) (f : Fin 258) => (V m c main_v33 : S258x512.Idx → EReal) (ix2 f o))
        = (fun o f => ((m ((c : Thread nD τ).loc main_arg5)) : S512x258.Idx → EReal) (ix2 o f)) from funext fun o => funext fun f => before_weight _ f o]

/-! ## What the lines after the region start from -/

/-- The buffer contents at the region's exit: the pipeline's arrays as the run leaves them, every other buffer as the
    region found it. -/
abbrev atExit (c : Dev nD) : Valuation τ sig (Elt Ideal) :=
  Pipeline.withArrays spec0 c (V0 m c) fun w => (dats m 0 c).arrAt w cfg0.N

theorem exit_seg (c : Dev nD) : atExit m c (Proc.devRef .tc main_v11) = Cert.ReferenceIdeal.Read.val_main_v11 (F := Ideal) (m ((c : Thread nD τ).loc main_arg2)) :=
  (Pipeline.withArrays_of_ne spec0 c (V0 m c) _ main_v11 (by exact (by decide : ∀ w, Pipeline.arrRef spec0 w ≠ main_v11))).trans (V_seg m c)
theorem exit_count (c : Dev nD) : atExit m c (Proc.devRef .tc main_v16) = Cert.ReferenceIdeal.Read.val_main_v16 (F := Ideal) (m ((c : Thread nD τ).loc main_arg2)) :=
  (Pipeline.withArrays_of_ne spec0 c (V0 m c) _ main_v16 (by exact (by decide : ∀ w, Pipeline.arrRef spec0 w ≠ main_v16))).trans (V_count m c)
theorem exit_safe (c : Dev nD) : atExit m c (Proc.devRef .tc main_v18) = Cert.ReferenceIdeal.Read.val_main_v18 (F := Ideal) (m ((c : Thread nD τ).loc main_arg2)) :=
  (Pipeline.withArrays_of_ne spec0 c (V0 m c) _ main_v18 (by exact (by decide : ∀ w, Pipeline.arrRef spec0 w ≠ main_v18))).trans (V_safe m c)
theorem exit_mean (c : Dev nD) : atExit m c (Proc.devRef .tc main_v26) = Cert.ReferenceIdeal.Read.val_main_v26 (F := Ideal) (m ((c : Thread nD τ).loc main_arg0)) (m ((c : Thread nD τ).loc main_arg2)) :=
  (Pipeline.withArrays_of_ne spec0 c (V0 m c) _ main_v26 (by exact (by decide : ∀ w, Pipeline.arrRef spec0 w ≠ main_v26))).trans (V_mean m c)
theorem exit_layer (c : Dev nD) :
    atExit m c (Proc.devRef .tc main_v34) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Pipeline.withArrays_arr spec0 launch0.win.arr_inj c (V0 m c) _ 5).trans ((Arr.final m c).trans (regionOut_eq m c))

/-! ## The three results -/

theorem result_pos (c : Dev nD) :
    Pipeline.afterTail₀ cfgs (dats m) 0 (V0 m) [hostOps1] c main_v51 = Cert.ReferenceIdeal.Read.val_main_v73 (F := Ideal) (m ((c : Thread nD τ).loc main_arg0)) (m ((c : Thread nD τ).loc main_arg2)) := by
  unfold Pipeline.afterTail₀
  show StableHlo.after hostOps1 (atExit m c) (Proc.devRef .tc main_v51) = _
  exact after_pos _ _ _ (exit_mean m c) (exit_count m c)

theorem result_feat (c : Dev nD) :
    Pipeline.afterTail₀ cfgs (dats m) 0 (V0 m) [hostOps1] c main_v48
      = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 (atExit m c) (Proc.devRef .tc main_v48) = _
  exact after_feat _ _ _ _ _ _ _ (exit_seg m c) (exit_count m c) (exit_safe m c) (exit_layer m c)

theorem result_mask (c : Dev nD) :
    Pipeline.afterTail₀ cfgs (dats m) 0 (V0 m) [hostOps1] c main_v52 = Cert.ReferenceIdeal.Read.val_main_v74 (F := Ideal) (m ((c : Thread nD τ).loc main_arg2)) := by
  unfold Pipeline.afterTail₀
  show StableHlo.after hostOps1 (atExit m c) (Proc.devRef .tc main_v52) = _
  exact after_mask _ _ (exit_count m c)

/-! ## The run -/

/-- Every weakly fair execution of the idealized kernel's @main terminates with its three results at the reference's
    result stages of the arguments, and the arguments unchanged. -/
theorem run : θ_run defs (onTc (τ := τ) (main (F := Ideal))) ⟨m, fun _ => 0, ρ⟩ fun r => ∀ c : Dev nD,
      r.2.mem ((c.tc : Thread nD τ).loc main_v51) = Cert.ReferenceIdeal.Read.val_main_v73 (F := Ideal) (m ((c : Thread nD τ).loc main_arg0)) (m ((c : Thread nD τ).loc main_arg2))
      ∧ r.2.mem ((c.tc : Thread nD τ).loc main_v48)
          = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v52) = Cert.ReferenceIdeal.Read.val_main_v74 (F := Ideal) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v51 (Pipeline.mem_restRefs_of main_v51 (by decide) (by decide))).trans (result_pos m c),
        ((h c).2 main_v48 (Pipeline.mem_restRefs_of main_v48 (by decide) (by decide))).trans (result_feat m c),
        ((h c).2 main_v52 (Pipeline.mem_restRefs_of main_v52 (by decide) (by decide))).trans (result_mask m c),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference's run, with its three results stated as the stage functions of the arguments.

  The reference is a straight line of host operations, so every weakly fair execution terminates with each buffer at
  the fold of the operations over the launch contents. The line is read in two parts. The first 58 operations compute
  the segment ids, the cluster counts and their floor at one, the cluster mean positions and the relative positions;
  the operations of the inlined gather-along-an-axis move their operands along the equality "this buffer holds a value
  of this type", which is the identity, and everything else is the stages' definitions unfolded. The remaining 51
  operations — the join of features and relative positions, the normalisation, the linear layer, the pooling and the
  masks — are read from any contents in which those five buffers and the arguments are the stages of some arguments:
  then the three result buffers end at the three result stages. The argument buffers are written by no operation.
-/
import proofs.«112629_j26929444946666_2_alg».proof.Proof.RefRun
import proofs.«112629_j26929444946666_2_alg».proof.Proof.RefRead

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The operations up to the relative positions. -/
abbrev upTo : List (HloOp τ sig (Elt F)) := (ops (F := F)).take 58
/-- The operations from the join of features and relative positions on. -/
abbrev fromOn : List (HloOp τ sig (Elt F)) := (ops (F := F)).drop 58

theorem ops_split : (ops (F := F)) = upTo ++ fromOn := (List.take_append_drop 58 ops).symm

/-! ## The first part, from any contents -/

set_option maxHeartbeats 4000000 in
theorem upTo_seg (W : Valuation τ sig (Elt F)) :
    after (upTo (F := F)) W (Proc.devRef .tc main_v11) = val_main_v11 (F := F) (W (Proc.devRef .tc main_arg2)) := by
  simp only [upTo, ops, List.take_succ_cons, List.take_zero]
  after_results_simp
  rfl

set_option maxHeartbeats 4000000 in
theorem upTo_count (W : Valuation τ sig (Elt F)) :
    after (upTo (F := F)) W (Proc.devRef .tc main_v16) = val_main_v16 (F := F) (W (Proc.devRef .tc main_arg2)) := by
  simp only [upTo, ops, List.take_succ_cons, List.take_zero]
  after_results_simp
  rfl

set_option maxHeartbeats 4000000 in
theorem upTo_safe (W : Valuation τ sig (Elt F)) :
    after (upTo (F := F)) W (Proc.devRef .tc main_v18) = val_main_v18 (F := F) (W (Proc.devRef .tc main_arg2)) := by
  simp only [upTo, ops, List.take_succ_cons, List.take_zero]
  after_results_simp
  rfl

set_option maxHeartbeats 4000000 in
theorem upTo_mean (W : Valuation τ sig (Elt F)) :
    after (upTo (F := F)) W (Proc.devRef .tc main_v26) = val_main_v26 (F := F) (W (Proc.devRef .tc main_arg0)) (W (Proc.devRef .tc main_arg2)) := by
  simp only [upTo, ops, List.take_succ_cons, List.take_zero]
  after_results_simp
  rfl

set_option maxHeartbeats 8000000 in
theorem upTo_rel (W : Valuation τ sig (Elt F)) :
    after (upTo (F := F)) W (Proc.devRef .tc main_v30) = val_main_v30 (F := F) (W (Proc.devRef .tc main_arg0)) (W (Proc.devRef .tc main_arg2)) := by
  simp only [upTo, ops, List.take_succ_cons, List.take_zero]
  after_results_simp
  simp only [cast_eq]
  rfl

set_option maxHeartbeats 4000000 in
/-- No operation of the first part writes an argument buffer. -/
theorem upTo_args (W : Valuation τ sig (Elt F)) :
    after (upTo (F := F)) W (Proc.devRef .tc main_arg0) = W (Proc.devRef .tc main_arg0)
    ∧ after (upTo (F := F)) W (Proc.devRef .tc main_arg1) = W (Proc.devRef .tc main_arg1)
    ∧ after (upTo (F := F)) W (Proc.devRef .tc main_arg2) = W (Proc.devRef .tc main_arg2)
    ∧ after (upTo (F := F)) W (Proc.devRef .tc main_arg3) = W (Proc.devRef .tc main_arg3)
    ∧ after (upTo (F := F)) W (Proc.devRef .tc main_arg4) = W (Proc.devRef .tc main_arg4)
    ∧ after (upTo (F := F)) W (Proc.devRef .tc main_arg5) = W (Proc.devRef .tc main_arg5) := by
  simp only [upTo, ops, List.take_succ_cons, List.take_zero]
  refine ⟨?_, ?_, ?_, ?_, ?_, ?_⟩ <;> after_results_simp

/-! ## The second part, from contents that hold the first part's stages -/

set_option maxHeartbeats 4000000 in
/-- The masked cluster mean positions: the first result. -/
theorem fromOn_pos (U : Valuation τ sig (Elt F)) (x0 : (⟨S8x16384x2, .f32⟩ : BufTy).Contents (Elt F)) (x2 : (⟨S8x16384, .i32⟩ : BufTy).Contents (Elt F))
    (hmean : U (Proc.devRef .tc main_v26) = val_main_v26 (F := F) x0 x2)
    (hcount : U (Proc.devRef .tc main_v16) = val_main_v16 (F := F) x2) :
    after (fromOn (F := F)) U (Proc.devRef .tc main_v73) = val_main_v73 (F := F) x0 x2 := by
  simp only [fromOn, ops, List.drop_succ_cons, List.drop_zero]
  after_results_simp
  rw [hmean, hcount]
  rfl

set_option maxHeartbeats 4000000 in
/-- The mask: the third result. -/
theorem fromOn_mask (U : Valuation τ sig (Elt F)) (x2 : (⟨S8x16384, .i32⟩ : BufTy).Contents (Elt F))
    (hcount : U (Proc.devRef .tc main_v16) = val_main_v16 (F := F) x2) :
    after (fromOn (F := F)) U (Proc.devRef .tc main_v74) = val_main_v74 (F := F) x2 := by
  simp only [fromOn, ops, List.drop_succ_cons, List.drop_zero]
  after_results_simp
  rw [hcount]
  rfl

set_option maxHeartbeats 8000000 in
/-- The masked pooled features: the second result. -/
theorem fromOn_feat (U : Valuation τ sig (Elt F)) (x0 : (⟨S8x16384x2, .f32⟩ : BufTy).Contents (Elt F)) (x1 : (⟨S8x16384x256, .f32⟩ : BufTy).Contents (Elt F)) (x2 : (⟨S8x16384, .i32⟩ : BufTy).Contents (Elt F)) (x3 x4 : (⟨S258, .f32⟩ : BufTy).Contents (Elt F)) (x5 : (⟨S512x258, .f32⟩ : BufTy).Contents (Elt F))
    (h1 : (U (Proc.devRef .tc main_arg1)) = x1) (h3 : (U (Proc.devRef .tc main_arg3)) = x3) (h4 : (U (Proc.devRef .tc main_arg4)) = x4) (h5 : (U (Proc.devRef .tc main_arg5)) = x5)
    (hseg : U (Proc.devRef .tc main_v11) = val_main_v11 (F := F) x2)
    (hcount : U (Proc.devRef .tc main_v16) = val_main_v16 (F := F) x2)
    (hsafe : U (Proc.devRef .tc main_v18) = val_main_v18 (F := F) x2)
    (hrel : U (Proc.devRef .tc main_v30) = val_main_v30 (F := F) x0 x2) :
    after (fromOn (F := F)) U (Proc.devRef .tc main_v70) = val_main_v70 (F := F) x0 x1 x2 x3 x4 x5 := by
  simp only [fromOn, ops, List.drop_succ_cons, List.drop_zero]
  after_results_simp
  rw [h1, h3, h4, h5, hseg, hcount, hsafe, hrel]
  rfl

set_option maxHeartbeats 4000000 in
/-- No operation of the second part writes an argument buffer. -/
theorem fromOn_args (U : Valuation τ sig (Elt F)) :
    after (fromOn (F := F)) U (Proc.devRef .tc main_arg0) = U (Proc.devRef .tc main_arg0)
    ∧ after (fromOn (F := F)) U (Proc.devRef .tc main_arg1) = U (Proc.devRef .tc main_arg1)
    ∧ after (fromOn (F := F)) U (Proc.devRef .tc main_arg2) = U (Proc.devRef .tc main_arg2)
    ∧ after (fromOn (F := F)) U (Proc.devRef .tc main_arg3) = U (Proc.devRef .tc main_arg3)
    ∧ after (fromOn (F := F)) U (Proc.devRef .tc main_arg4) = U (Proc.devRef .tc main_arg4)
    ∧ after (fromOn (F := F)) U (Proc.devRef .tc main_arg5) = U (Proc.devRef .tc main_arg5) := by
  simp only [fromOn, ops, List.drop_succ_cons, List.drop_zero]
  refine ⟨?_, ?_, ?_, ?_, ?_, ?_⟩ <;> after_results_simp

/-! ## The whole line -/

/-- The fold of the whole line is the second part's fold over the first part's. -/
theorem after_ops (W : Valuation τ sig (Elt F)) : after (ops (F := F)) W = after fromOn (after upTo W) := by
  rw [ops_split, after_append]

theorem result_pos (W : Valuation τ sig (Elt F)) :
    after (ops (F := F)) W (Proc.devRef .tc main_v73) = val_main_v73 (F := F) (W (Proc.devRef .tc main_arg0)) (W (Proc.devRef .tc main_arg2)) := by
  rw [after_ops]
  exact fromOn_pos _ _ _ (upTo_mean W) (upTo_count W)

theorem result_mask (W : Valuation τ sig (Elt F)) :
    after (ops (F := F)) W (Proc.devRef .tc main_v74) = val_main_v74 (F := F) (W (Proc.devRef .tc main_arg2)) := by
  rw [after_ops]
  exact fromOn_mask _ _ (upTo_count W)

theorem result_feat (W : Valuation τ sig (Elt F)) :
    after (ops (F := F)) W (Proc.devRef .tc main_v70)
      = val_main_v70 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_ops]
  exact fromOn_feat _ _ _ _ _ _ _ (upTo_args W).2.1 (upTo_args W).2.2.2.1 (upTo_args W).2.2.2.2.1 (upTo_args W).2.2.2.2.2
    (upTo_seg W) (upTo_count W) (upTo_safe W) (upTo_rel W)

theorem kept_args (W : Valuation τ sig (Elt F)) :
    after (ops (F := F)) W (Proc.devRef .tc main_arg0) = W (Proc.devRef .tc main_arg0)
    ∧ after (ops (F := F)) W (Proc.devRef .tc main_arg1) = W (Proc.devRef .tc main_arg1)
    ∧ after (ops (F := F)) W (Proc.devRef .tc main_arg2) = W (Proc.devRef .tc main_arg2)
    ∧ after (ops (F := F)) W (Proc.devRef .tc main_arg3) = W (Proc.devRef .tc main_arg3)
    ∧ after (ops (F := F)) W (Proc.devRef .tc main_arg4) = W (Proc.devRef .tc main_arg4)
    ∧ after (ops (F := F)) W (Proc.devRef .tc main_arg5) = W (Proc.devRef .tc main_arg5) := by
  rw [after_ops]
  obtain ⟨a0, a1, a2, a3, a4, a5⟩ := upTo_args W
  obtain ⟨b0, b1, b2, b3, b4, b5⟩ := fromOn_args (after upTo W)
  exact ⟨b0.trans a0, b1.trans a1, b2.trans a2, b3.trans a3, b4.trans a4, b5.trans a5⟩

/-! ## The run -/

/-- On every device, from any memory with zero counters: every weakly fair execution of the reference's @main
    terminates with each result at its stage function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = val_main_v73 (F := F) (m ((c.tc : Thread nD τ).loc main_arg0)) (m ((c.tc : Thread nD τ).loc main_arg2))
      ∧ r.2.mem ((c.tc : Thread nD τ).loc main_v70)
          = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v74) = val_main_v74 (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v73).trans (result_pos _), (h c main_v70).trans (result_feat _), (h c main_v74).trans (result_mask _),
        (h c main_arg0).trans (kept_args _).1, (h c main_arg1).trans (kept_args _).2.1,
        (h c main_arg2).trans (kept_args _).2.2.1, (h c main_arg3).trans (kept_args _).2.2.2.1,
        (h c main_arg4).trans (kept_args _).2.2.2.2.1, (h c main_arg5).trans (kept_args _).2.2.2.2.2⟩)
    (run_seq scopedRefs_eq scopedSems_eq defs main (fun _ => ops) main_eq (fun _ => ops_sub) m ρ)

end Cert.ReferenceIdeal.RefValue

end
-- ==== Proof.lean ====
/-
  Cluster merging: a fused layer normalisation and linear layer on a TPU kernel against its jnp reference, equal over the
  extended reals.

  Both programs normalise the positions by their per-coordinate maximum, number the (batch, cluster) segments, count the
  tokens of each cluster, average the positions per cluster, and take each token's position relative to its cluster's
  mean — the same host operations with the same constants. Both then apply, to every token's row of 256 features and
  2 relative coordinates, a layer normalisation (mean and variance by sums divided by 258.0, guard 0x3727C5AC under
  the inverse root, scale and shift vectors) and a linear layer with a 512 × 258 weight matrix; and both pool the result
  by cluster (segment sum over the floored count), mask empty clusters and emit the mask.

  The one difference is inside the layer. The reference joins the two inputs in memory and contracts all 258 entries
  with the weight matrix at once. The kernel joins them in a block of 4096 tokens, sends the first 256 normalised
  entries through the matrix unit against the first 256 rows of the transposed weights, and adds the products of
  entries 256 and 257 with rows 256 and 257 one after the other. A sum of 258 terms taken as 256 + 1 + 1 is the same
  extended real (addition there is associative and commutative), so no finiteness of the inputs is used.

  The kernel's frames and launch side are the generated ones; its value is read off the frame run: the lines before
  the region (KernelPrefix), the body's block entry by entry (KernelBody), the 32 blocks tiling the output array
  (KernelArray), the lines after the region (KernelTail), assembled in KernelValue. The reference's run is RefValue over
  the stage functions, its layer read entry by entry in RefLayer. Both programs' three results are stated as the SAME
  terms — the reference's result stages of the arguments — so the claim follows by rewriting the arguments' agreement.
-/
import proofs.«112629_j26929444946666_2_alg».proof.Defs
import proofs.«112629_j26929444946666_2_alg».proof.Proof.Gen.Kernel
import proofs.«112629_j26929444946666_2_alg».proof.Proof.Gen.Kernel.Skeleton
import proofs.«112629_j26929444946666_2_alg».proof.Proof.Gen.Kernel.Launch
import proofs.«112629_j26929444946666_2_alg».proof.Proof.Gen.Kernel.Points
import proofs.«112629_j26929444946666_2_alg».proof.Proof.Gen.Kernel.Frame
import proofs.«112629_j26929444946666_2_alg».proof.Proof.Gen.KernelIdeal
import proofs.«112629_j26929444946666_2_alg».proof.Proof.Gen.KernelIdeal.Skeleton
import proofs.«112629_j26929444946666_2_alg».proof.Proof.Gen.KernelIdeal.Launch
import proofs.«112629_j26929444946666_2_alg».proof.Proof.Gen.KernelIdeal.Points
import proofs.«112629_j26929444946666_2_alg».proof.Proof.Gen.KernelIdeal.Frame
import proofs.«112629_j26929444946666_2_alg».proof.Proof.Gen.ReferenceIdeal
import proofs.«112629_j26929444946666_2_alg».proof.Proof.Gen.Pre_finite_inputs
import proofs.«112629_j26929444946666_2_alg».proof.Proof.KernelValue
import proofs.«112629_j26929444946666_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2.2) (Cert.ReferenceIdeal.RefValue.run (F := Ideal) m ρ)

/-- The ideal pass rewrote nothing: the idealized kernel is the kernel's own text read over the extended reals. -/
theorem preserves : Cert.preserves_Kernel_KernelIdeal := trivial

/-- From memories that agree on the arguments both programs end with the reference's three result stages of those
    arguments: the masked cluster mean positions, the masked pooled features, the mask. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun _ h c => ?_) (Cert.ReferenceIdeal.RefValue.run (F := Ideal) m' ρ')
  obtain ⟨e0, e1, e2, e3, e4, e5⟩ := hagree c
  obtain ⟨r0, r1, r2, rest⟩ := h c
  refine ⟨r0.trans ?_, r1.trans ?_, r2.trans ?_, rest⟩
  · rw [e0, e2]
  · rw [e0, e1, e2, e3, e4, e5]
  · rw [e2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
